-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x512 : Shape := ⟨4, ![16, 64, 64, 512]⟩
abbrev S512x64 : Shape := ⟨2, ![512, 64]⟩
abbrev S512x256 : Shape := ⟨2, ![512, 256]⟩
abbrev S256x512 : Shape := ⟨2, ![256, 512]⟩
abbrev S_ : Shape := ⟨0, ![]⟩

class Facts : Prop where
  bcast_S_S16x64x64x512 : S_.BroadcastsInDim S16x64x64x512 (![] : Fin 0 → Fin S16x64x64x512.rank)
  reducesTo_S16x64x64x512_S_d0_1_2_3 : S16x64x64x512.ReducesTo [0, 1, 2, 3] S_
  h_S_ : 0 < S_.numel
  bcast_S_S512x64 : S_.BroadcastsInDim S512x64 (![] : Fin 0 → Fin S512x64.rank)
  reducesTo_S512x64_S_d0_1 : S512x64.ReducesTo [0, 1] S_
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  main_v23

def fn {F : FTy → Type} [FloatOps F] (main_arg0 : FVec F S16x64x64x512 .f32) (main_arg1 : FVec F S512x64 .f32) (main_arg2 : FVec F S512x64 .f32) (main_arg3 : FVec F S512x256 .f32) (main_arg4 : FVec F S256x512 .f32) : IVec S_ 1 :=
  let main_v0 : FVec F S16x64x64x512 .f32 := Host.absf main_arg0
  let main_cst : FVec F S_ .f32 := constant S_ .f32 0x7F800000#32
  let main_v1 : FVec F S16x64x64x512 .f32 := broadcastInDim S16x64x64x512 ![] bcast_S_S16x64x64x512 main_cst
  let main_v2 : IVec S16x64x64x512 1 := cmpf .olt main_v0 main_v1
  let main_c : IVec S_ 1 := constantI S_ 1 1#1
  let main_v3 : IVec S_ 1 := (fun x v => Host.reduce IntOp.andi x v reducesTo_S16x64x64x512_S_d0_1_2_3 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S16x64x64x512 : Shape := ⟨4, ![16, 64, 64, 512]⟩
abbrev S512x64 : Shape := ⟨2, ![512, 64]⟩
abbrev S512x256 : Shape := ⟨2, ![512, 256]⟩
abbrev S256x512 : Shape := ⟨2, ![256, 512]⟩
abbrev S16x4096x512 : Shape := ⟨3, ![16, 4096, 512]⟩
abbrev S16x32x2x32x2x512 : Shape := ⟨6, ![16, 32, 2, 32, 2, 512]⟩
abbrev S_ : Shape := ⟨0, ![]⟩
abbrev S16x32x32x512 : Shape := ⟨4, ![16, 32, 32, 512]⟩
abbrev S16384x512 : Shape := ⟨2, ![16384, 512]⟩
abbrev S512x320 : Shape := ⟨2, ![512, 320]⟩
abbrev S16384x320 : Shape := ⟨2, ![16384, 320]⟩
abbrev S1024x512 : Shape := ⟨2, ![1024, 512]⟩
abbrev S1024x320 : Shape := ⟨2, ![1024, 320]⟩
abbrev S16384x64 : Shape := ⟨2, ![16384, 64]⟩
abbrev S16x1024x64 : Shape := ⟨3, ![16, 1024, 64]⟩
abbrev S16384x256 : Shape := ⟨2, ![16384, 256]⟩
abbrev S16x1024x256 : Shape := ⟨3, ![16, 1024, 256]⟩
abbrev S1x1024x512 : Shape := ⟨3, ![1, 1024, 512]⟩
abbrev S1x1024x64 : Shape := ⟨3, ![1, 1024, 64]⟩
abbrev S1x1024x256 : Shape := ⟨3, ![1, 1024, 256]⟩
abbrev S1024x64 : Shape := ⟨2, ![1024, 64]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 21
  | .vmem => 15
  | .smem => 0
  | _ => 0

abbrev bufTy : (tb : Table) → Fin (tcTables nBuf tb) → BufTy
  | .hbm, ⟨0, _⟩ => ⟨S16x64x64x512, .f32⟩
  | .hbm, ⟨1, _⟩ => ⟨S512x64, .f32⟩
  | .hbm, ⟨2, _⟩ => ⟨S512x64, .f32⟩
  | .hbm, ⟨3, _⟩ => ⟨S512x256, .f32⟩
  | .hbm, ⟨4, _⟩ => ⟨S256x512, .f32⟩
  | .hbm, ⟨5, _⟩ => ⟨S16x4096x512, .f32⟩
  | .hbm, ⟨6, _⟩ => ⟨S16x32x2x32x2x512, .f32⟩
  | .hbm, ⟨7, _⟩ => ⟨S_, .f32⟩
  | .hbm, ⟨8, _⟩ => ⟨S16x32x32x512, .f32⟩
  | .hbm, ⟨9, _⟩ => ⟨S_, .f32⟩
  | .hbm, ⟨10, _⟩ => ⟨S16x32x32x512, .f32⟩
  | .hbm, ⟨11, _⟩ => ⟨S16x32x32x512, .f32⟩
  | .hbm, ⟨12, _⟩ => ⟨S16384x512, .f32⟩
  | .hbm, ⟨13, _⟩ => ⟨S512x320, .f32⟩
  | .hbm, ⟨14, _⟩ => ⟨S16384x320, .bf16⟩
  | .hbm, ⟨15, _⟩ => ⟨S16384x64, .bf16⟩
  | .hbm, ⟨16, _⟩ => ⟨S16x1024x64, .bf16⟩
  | .hbm, ⟨17, _⟩ => ⟨S16384x256, .bf16⟩
  | .hbm, ⟨18, _⟩ => ⟨S16x1024x256, .bf16⟩
  | .hbm, ⟨19, _⟩ => ⟨S16x4096x512, .f32⟩
  | .hbm, ⟨20, _⟩ => ⟨S16x64x64x512, .f32⟩
  | .local _ .vmem, ⟨0, _⟩ => ⟨S1024x512, .f32⟩
  | .local _ .vmem, ⟨1, _⟩ => ⟨S1024x512, .f32⟩
  | .local _ .vmem, ⟨2, _⟩ => ⟨S512x320, .f32⟩
  | .local _ .vmem, ⟨3, _⟩ => ⟨S1024x320, .bf16⟩
  | .local _ .vmem, ⟨4, _⟩ => ⟨S1024x320, .bf16⟩
  | .local _ .vmem, ⟨5, _⟩ => ⟨S1x1024x512, .f32⟩
  | .local _ .vmem, ⟨6, _⟩ => ⟨S1x1024x512, .f32⟩
  | .local _ .vmem, ⟨7, _⟩ => ⟨S512x64, .f32⟩
  | .local _ .vmem, ⟨8, _⟩ => ⟨S1x1024x64, .bf16⟩
  | .local _ .vmem, ⟨9, _⟩ => ⟨S1x1024x64, .bf16⟩
  | .local _ .vmem, ⟨10, _⟩ => ⟨S1x1024x256, .bf16⟩
  | .local _ .vmem, ⟨11, _⟩ => ⟨S1x1024x256, .bf16⟩
  | .local _ .vmem, ⟨12, _⟩ => ⟨S256x512, .f32⟩
  | .local _ .vmem, ⟨13, _⟩ => ⟨S1x1024x512, .f32⟩
  | .local _ .vmem, ⟨14, _⟩ => ⟨S1x1024x512, .f32⟩
  | _, _ => ⟨S16x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x320 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S256x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S16x64x64x512_S16x4096x512 : S16x64x64x512.ShapeCasts S16x4096x512
  shapeCasts_S16x64x64x512_S16x32x2x32x2x512 : S16x64x64x512.ShapeCasts S16x32x2x32x2x512
  reducesTo_S16x32x2x32x2x512_S16x32x32x512_d2_4 : S16x32x2x32x2x512.ReducesTo [2, 4] S16x32x32x512
  h_S_ : 0 < S_.numel
  bcast_S_S16x32x32x512 : S_.BroadcastsInDim S16x32x32x512 (![] : Fin 0 → Fin S16x32x32x512.rank)
  shapeCasts_S16x32x32x512_S16384x512 : S16x32x32x512.ShapeCasts S16384x512
  concatenates_S512x64_S512x256_S512x320_d1 : Shape.Concatenates [S512x64, S512x256] S512x320 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x320_S512x320_0_0 : ∀ a, (![0, 0] : Fin 2 → Nat) a + S512x320.size a ≤ S512x320.size a
  h_S512x320 : 0 < S512x320.numel
  shapeCasts_S512x320_S512x320 : S512x320.ShapeCasts S512x320
  inb_S1024x320_S1024x320_0_0 : ∀ a, (![0, 0] : Fin 2 → Nat) a + S1024x320.size a ≤ S1024x320.size a
  h_S1024x320 : 0 < S1024x320.numel
  packedbf16_S1024x320_S1024x320_0_0 : (Rect.unit (s := S1024x320) ![0, 0] S1024x320.size inb_S1024x320_S1024x320_0_0).PackedRows (EltTy.packing .bf16)
  slices_S16384x320_S16384x64_0_0 : S16384x320.Slices ![0, 0] S16384x64
  shapeCasts_S16384x64_S16x1024x64 : S16384x64.ShapeCasts S16x1024x64
  slices_S16384x320_S16384x256_0_64 : S16384x320.Slices ![0, 64] S16384x256
  shapeCasts_S16384x256_S16x1024x256 : S16384x256.ShapeCasts S16x1024x256
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x64_S512x64_0_0 : ∀ a, (![0, 0] : Fin 2 → Nat) a + S512x64.size a ≤ S512x64.size a
  h_S512x64 : 0 < S512x64.numel
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x1024_S1024 : S1024x1024.Reduces [1] S1024
  shapeCasts_S1024_S1024x1 : S1024.ShapeCasts S1024x1
  broadcasts_S1024x1_S1024x1024 : S1024x1.Broadcasts S1024x1024
  inb_S256x512_S256x512_0_0 : ∀ a, (![0, 0] : Fin 2 → Nat) a + S256x512.size a ≤ S256x512.size a
  h_S256x512 : 0 < S256x512.numel
  shapeCasts_S1024x512_S1x1024x512 : S1024x512.ShapeCasts S1x1024x512
  shapeCasts_S16x4096x512_S16x64x64x512 : S16x4096x512.ShapeCasts S16x64x64x512
  dot_S1024x512_S512x320_S1024x320_1_0_0_1_n_n_wf : DotDims.WF S1024x512 S512x320 S1024x320 [1] [0] [0] [1] [] []
  dot_S1024x512_S512x64_S1024x64_1_0_0_1_n_n_wf : DotDims.WF S1024x512 S512x64 S1024x64 [1] [0] [0] [1] [] []
  dot_S1024x64_S1024x64_S1024x1024_1_1_0_0_n_n_wf : DotDims.WF S1024x64 S1024x64 S1024x1024 [1] [1] [0] [0] [] []
  dot_S1024x1024_S1024x256_S1024x256_1_0_0_1_n_n_wf : DotDims.WF S1024x1024 S1024x256 S1024x256 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x320.size a ≤ S512x320.size a
  hwx0_1 : ∀ i : grid0.Coords, EltTy.bits .f32 = 32 ∨ (Rect.block (s := S512x320) S512x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x320.size a ≤ S16384x320.size a
  hwx0_2 : ∀ i : grid0.Coords, EltTy.bits .bf16 = 32 ∨ (Rect.block (s := S16384x320) S1024x320.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S16x4096x512.size a
  hwx1_0 : ∀ i : grid1.Coords, EltTy.bits .f32 = 32 ∨ (Rect.block (s := S16x4096x512) S1x1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S512x64.size a
  hwx1_1 : ∀ i : grid1.Coords, EltTy.bits .f32 = 32 ∨ (Rect.block (s := S512x64) S512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S16x1024x64.size a
  hwx1_2 : ∀ i : grid1.Coords, EltTy.bits .bf16 = 32 ∨ (Rect.block (s := S16x1024x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x256.size a ≤ S16x1024x256.size a
  hwx1_3 : ∀ i : grid1.Coords, EltTy.bits .bf16 = 32 ∨ (Rect.block (s := S16x1024x256) S1x1024x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .f32 = 32 ∨ (Rect.block (s := S256x512) S256x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x512.size a ≤ S16x4096x512.size a
  hwx1_5 : ∀ i : grid1.Coords, EltTy.bits .f32 = 32 ∨ (Rect.block (s := S16x4096x512) S1x1024x512.size (cc1_transform_5 i) (hinb1_5 i)).WholeWords (EltTy.packing .f32)

variable [Facts₀]

def dot_S1024x512_S512x320_S1024x320_1_0_0_1_n_n : DotDims S1024x512 S512x320 S1024x320 where
  lhsContracting := [1]
  rhsContracting := [0]
  lhsNonContracting := [0]
  rhsNonContracting := [1]
  lhsBatch := []
  rhsBatch := []
  wf := dot_S1024x512_S512x320_S1024x320_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v5) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x320.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x320.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x64x64x512 : Shape := ⟨4, ![16, 64, 64, 512]⟩
abbrev S512x64 : Shape := ⟨2, ![512, 64]⟩
abbrev S512x256 : Shape := ⟨2, ![512, 256]⟩
abbrev S256x512 : Shape := ⟨2, ![256, 512]⟩
abbrev S16x64x64x64 : Shape := ⟨4, ![16, 64, 64, 64]⟩
abbrev S16x4096x64 : Shape := ⟨3, ![16, 4096, 64]⟩
abbrev S16x32x2x32x2x512 : Shape := ⟨6, ![16, 32, 2, 32, 2, 512]⟩
abbrev S_ : Shape := ⟨0, ![]⟩
abbrev S16x32x32x512 : Shape := ⟨4, ![16, 32, 32, 512]⟩
abbrev S16x32x32x64 : Shape := ⟨4, ![16, 32, 32, 64]⟩
abbrev S16x1024x64 : Shape := ⟨3, ![16, 1024, 64]⟩
abbrev S16x32x32x256 : Shape := ⟨4, ![16, 32, 32, 256]⟩
abbrev S16x1024x256 : Shape := ⟨3, ![16, 1024, 256]⟩
abbrev S16x4096x1024 : Shape := ⟨3, ![16, 4096, 1024]⟩
abbrev S16x4096 : Shape := ⟨2, ![16, 4096]⟩
abbrev S16x4096x1 : Shape := ⟨3, ![16, 4096, 1]⟩
abbrev S16x4096x256 : Shape := ⟨3, ![16, 4096, 256]⟩
abbrev S16x64x64x256 : Shape := ⟨4, ![16, 64, 64, 256]⟩

abbrev nBuf : Space → Nat
  | .hbm => 36
  | .vmem => 0
  | .smem => 0
  | _ => 0

abbrev bufTy : (tb : Table) → Fin (tcTables nBuf tb) → BufTy
  | .hbm, ⟨0, _⟩ => ⟨S16x64x64x512, .f32⟩
  | .hbm, ⟨1, _⟩ => ⟨S512x64, .f32⟩
  | .hbm, ⟨2, _⟩ => ⟨S512x64, .f32⟩
  | .hbm, ⟨3, _⟩ => ⟨S512x256, .f32⟩
  | .hbm, ⟨4, _⟩ => ⟨S256x512, .f32⟩
  | .hbm, ⟨5, _⟩ => ⟨S16x64x64x64, .f32⟩
  | .hbm, ⟨6, _⟩ => ⟨S16x4096x64, .f32⟩
  | .hbm, ⟨7, _⟩ => ⟨S16x32x2x32x2x512, .f32⟩
  | .hbm, ⟨8, _⟩ => ⟨S_, .f32⟩
  | .hbm, ⟨9, _⟩ => ⟨S16x32x32x512, .f32⟩
  | .hbm, ⟨10, _⟩ => ⟨S_, .f32⟩
  | .hbm, ⟨11, _⟩ => ⟨S16x32x32x512, .f32⟩
  | .hbm, ⟨12, _⟩ => ⟨S16x32x32x512, .f32⟩
  | .hbm, ⟨13, _⟩ => ⟨S16x32x32x64, .f32⟩
  | .hbm, ⟨14, _⟩ => ⟨S16x1024x64, .f32⟩
  | .hbm, ⟨15, _⟩ => ⟨S16x32x32x256, .f32⟩
  | .hbm, ⟨16, _⟩ => ⟨S16x1024x256, .f32⟩
  | .hbm, ⟨17, _⟩ => ⟨S16x4096x1024, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S16x4096, .f32⟩
  | .hbm, ⟨23, _⟩ => ⟨S16x4096x1, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S_, .f32⟩
  | .hbm, ⟨28, _⟩ => ⟨S16x4096, .f32⟩
  | .hbm, ⟨29, _⟩ => ⟨S16x4096x1, .f32⟩
  | .hbm, ⟨30, _⟩ => ⟨S16x4096x1024, .f32⟩
  | .hbm, ⟨31, _⟩ => ⟨S16x4096x1024, .f32⟩
  | .hbm, ⟨32, _⟩ => ⟨S16x4096x256, .f32⟩
  | .hbm, ⟨33, _⟩ => ⟨S16x64x64x256, .f32⟩
  | .hbm, ⟨34, _⟩ => ⟨S16x64x64x512, .f32⟩
  | .hbm, ⟨35, _⟩ => ⟨S16x64x64x512, .f32⟩
  | _, _ => ⟨S16x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  shapeCasts_S16x64x64x64_S16x4096x64 : S16x64x64x64.ShapeCasts S16x4096x64
  shapeCasts_S16x64x64x512_S16x32x2x32x2x512 : S16x64x64x512.ShapeCasts S16x32x2x32x2x512
  reducesTo_S16x32x2x32x2x512_S16x32x32x512_d2_4 : S16x32x2x32x2x512.ReducesTo [2, 4] S16x32x32x512
  h_S_ : 0 < S_.numel
  bcast_S_S16x32x32x512 : S_.BroadcastsInDim S16x32x32x512 (![] : Fin 0 → Fin S16x32x32x512.rank)
  shapeCasts_S16x32x32x64_S16x1024x64 : S16x32x32x64.ShapeCasts S16x1024x64
  shapeCasts_S16x32x32x256_S16x1024x256 : S16x32x32x256.ShapeCasts S16x1024x256
  reducesTo_S16x4096x1024_S16x4096_d2 : S16x4096x1024.ReducesTo [2] S16x4096
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x1024_0_1_2 : S16x4096x1.BroadcastsInDim S16x4096x1024 (![0, 1, 2] : Fin 3 → Fin S16x4096x1024.rank)
  shapeCasts_S16x4096x256_S16x64x64x256 : S16x4096x256.ShapeCasts S16x64x64x256
  dot_S16x64x64x512_S512x64_S16x64x64x64_3_0_012_1_n_n_wf : DotDims.WF S16x64x64x512 S512x64 S16x64x64x64 [3] [0] [0, 1, 2] [1] [] []
  dot_S16x32x32x512_S512x64_S16x32x32x64_3_0_012_1_n_n_wf : DotDims.WF S16x32x32x512 S512x64 S16x32x32x64 [3] [0] [0, 1, 2] [1] [] []
  dot_S16x32x32x512_S512x256_S16x32x32x256_3_0_012_1_n_n_wf : DotDims.WF S16x32x32x512 S512x256 S16x32x32x256 [3] [0] [0, 1, 2] [1] [] []
  dot_S16x4096x64_S16x1024x64_S16x4096x1024_2_2_1_1_0_0_wf : DotDims.WF S16x4096x64 S16x1024x64 S16x4096x1024 [2] [2] [1] [1] [0] [0]
  dot_S16x4096x1024_S16x1024x256_S16x4096x256_2_1_1_2_0_0_wf : DotDims.WF S16x4096x1024 S16x1024x256 S16x4096x256 [2] [1] [1] [2] [0] [0]
  dot_S16x64x64x256_S256x512_S16x64x64x512_3_0_012_1_n_n_wf : DotDims.WF S16x64x64x256 S256x512 S16x64x64x512 [3] [0] [0, 1, 2] [1] [] []

variable [Facts₀]

def dot_S16x64x64x512_S512x64_S16x64x64x64_3_0_012_1_n_n : DotDims S16x64x64x512 S512x64 S16x64x64x64 where
  lhsContracting := [3]
  rhsContracting := [0]
  lhsNonContracting := [0, 1, 2]
  rhsNonContracting := [1]
  lhsBatch := []
  rhsBatch := []
  wf := dot_S16x64x64x512_S512x64_S16x64x64x64_3_0_012_1_n_n_wf
def dot_S16x32x32x512_S512x64_S16x32x32x64_3_0_012_1_n_n : DotDims S16x32x32x512 S512x64 S16x32x32x64 where
  lhsContracting := [3]
  rhsContracting := [0]
  lhsNonContracting := [0, 1, 2]
  rhsNonContracting := [1]
  lhsBatch := []
  rhsBatch := []
  wf := dot_S16x32x32x512_S512x64_S16x32x32x64_3_0_012_1_n_n_wf
def dot_S16x32x32x512_S512x256_S16x32x32x256_3_0_012_1_n_n : DotDims S16x32x32x512 S512x256 S16x32x32x256 where
  lhsContracting := [3]
  rhsContracting := [0]
  lhsNonContracting := [0, 1, 2]
  rhsNonContracting := [1]
  lhsBatch := []
  rhsBatch := []
  wf := dot_S16x32x32x512_S512x256_S16x32x32x256_3_0_012_1_n_n_wf
def dot_S16x4096x64_S16x1024x64_S16x4096x1024_2_2_1_1_0_0 : DotDims S16x4096x64 S16x1024x64 S16x4096x1024 where
  lhsContracting := [2]
  rhsContracting := [2]
  lhsNonContracting := [1]
  rhsNonContracting := [1]
  lhsBatch := [0]
  rhsBatch := [0]
  wf := dot_S16x4096x64_S16x1024x64_S16x4096x1024_2_2_1_1_0_0_wf
def dot_S16x4096x1024_S16x1024x256_S16x4096x256_2_1_1_2_0_0 : DotDims S16x4096x1024 S16x1024x256 S16x4096x256 where
  lhsContracting := [2]
  rhsContracting := [1]
  lhsNonContracting := [1]
  rhsNonContracting := [2]
  lhsBatch := [0]
  rhsBatch := [0]
  wf := dot_S16x4096x1024_S16x1024x256_S16x4096x256_2_1_1_2_0_0_wf
def dot_S16x64x64x256_S256x512_S16x64x64x512_3_0_012_1_n_n : DotDims S16x64x64x256 S256x512 S16x64x64x512 where
  lhsContracting := [3]
  rhsContracting := [0]
  lhsNonContracting := [0, 1, 2]
  rhsNonContracting := [1]
  lhsBatch := []
  rhsBatch := []
  wf := dot_S16x64x64x256_S256x512_S16x64x64x512_3_0_012_1_n_n_wf

class Facts : Prop extends Facts₀ where

variable [Facts]
-- ==== Proof.KernelRun.lean ====
/-
  The idealized kernel's whole run, with the result named.

  @main is five segments: host operations, the key/value projection (a grid of 16 row blocks), host operations, the
  fused attention (a grid of 16 × 4 query blocks), and a last reshape. Every weakly fair execution runs them in
  order, and the contents of every buffer at each boundary are a fold from the launch memory. This module reads the
  result buffer off the last boundary of that fold, beside the argument arrays, which end as launched.
-/
import proofs.«156543_j86423331930517_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds what the fold through
    the five segments leaves there, and the five argument arrays are as launched. -/
theorem run_result : θ_run defs (onTc (τ := τ) (main (F := F))) ⟨m, fun _ => 0, ρ⟩ (fun r => ∀ c : Dev nD,
      r.2.mem ((c.tc : Thread nD τ).loc main_v13) = W5 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v13 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Whole

end
-- ==== Proof.BlockProducts.lean ====
/-
  The kernel's five matrix products, each read at one entry of its result.

  Every product accumulates into a zero block, so on the extended reals the entry at (r, n) is the sum, over the
  one contracted axis, of the products of the two operands' entries — the same sum the host's contraction is, with no
  order of accumulation left in it. Four products contract the left operand's columns with the right operand's rows;
  the score product contracts the last axis of both operands (keys are stored row by row, never transposed).
-/
import proofs.«156543_j86423331930517_2_alg».proof.Proof.Gen.KernelIdeal
import Idealize.ShloMosaic.PureOps.Ideal.Laws
import Idealize.ShloMosaic.Lib.ValueIdx

noncomputable section

namespace Cert.KernelIdeal.Body

open Cert.KernelIdeal Cert.KernelIdeal.Gen Idealize.ShloMosaic Idealize.ShloMosaic.ValueIdx

/-- The key/value projection of a block of pooled rows: row `r` of the block against column `n` of the stacked weights. Into the zero accumulator the product at (r, n) is the plain sum over the contracted axis. -/
theorem proj_apply {φ₁ φ₂ : FTy} (A : FVec Ideal S1024x512 φ₁) (B : FVec Ideal S512x320 φ₂) (r : Fin 1024) (n : Fin 320) :
    matmul dot_S1024x512_S512x320_S1024x320_1_0_0_1_n_n none A B (constant (F := Ideal) S1024x320 .f32 0x00000000#32) (ix2 r n)
      = ∑ k : Fin 512, A (ix2 r k) * B (ix2 k n) := by
  simp only [matmul]
  rw [Ideal.matmul_constant_zero_apply, ← Equiv.sum_comp (contrEquiv1 dot_S1024x512_S512x320_S1024x320_1_0_0_1_n_n 512 rfl rfl).symm]
  refine Finset.sum_congr rfl fun k _ => ?_
  have hk := contrEquiv1_symm_val dot_S1024x512_S512x320_S1024x320_1_0_0_1_n_n 512 rfl rfl k
  have el : dot_S1024x512_S512x320_S1024x320_1_0_0_1_n_n.lhsIdx (ix2 r n) ((contrEquiv1 dot_S1024x512_S512x320_S1024x320_1_0_0_1_n_n 512 rfl rfl).symm k) = ix2 r k := funext fun a => Fin.ext (by
    match a with
    | ⟨0, _⟩ =>
      show (dot_S1024x512_S512x320_S1024x320_1_0_0_1_n_n.lhsIdx (ix2 r n) _ 0).val = r.val
      unfold DotDims.lhsIdx
      rw [dif_neg (show ¬(0 : Fin S1024x512.rank) ∈ dot_S1024x512_S512x320_S1024x320_1_0_0_1_n_n.lhsBatch by decide), dif_pos (show (0 : Fin S1024x512.rank) ∈ dot_S1024x512_S512x320_S1024x320_1_0_0_1_n_n.lhsNonContracting by decide)]
      rfl
    | ⟨1, _⟩ => exact (dot_S1024x512_S512x320_S1024x320_1_0_0_1_n_n.lhsIdx_val_of_single rfl (ix2 r n) _).trans hk)
  have er : dot_S1024x512_S512x320_S1024x320_1_0_0_1_n_n.rhsIdx (ix2 r n) ((contrEquiv1 dot_S1024x512_S512x320_S1024x320_1_0_0_1_n_n 512 rfl rfl).symm k) = ix2 k n := funext fun a => Fin.ext (by
    match a with
    | ⟨0, _⟩ => exact (dot_S1024x512_S512x320_S1024x320_1_0_0_1_n_n.rhsIdx_val_of_single rfl (ix2 r n) _).trans hk
    | ⟨1, _⟩ =>
      show (dot_S1024x512_S512x320_S1024x320_1_0_0_1_n_n.rhsIdx (ix2 r n) _ 1).val = n.val
      unfold DotDims.rhsIdx
      rw [dif_neg (show ¬(1 : Fin S512x320.rank) ∈ dot_S1024x512_S512x320_S1024x320_1_0_0_1_n_n.rhsBatch by decide), dif_pos (show (1 : Fin S512x320.rank) ∈ dot_S1024x512_S512x320_S1024x320_1_0_0_1_n_n.rhsNonContracting by decide)]
      rfl)
  rw [el, er]

/-- The query features of a block of rows. Into the zero accumulator the product at (r, n) is the plain sum over the contracted axis. -/
theorem query_apply {φ₁ φ₂ : FTy} (A : FVec Ideal S1024x512 φ₁) (B : FVec Ideal S512x64 φ₂) (r : Fin 1024) (n : Fin 64) :
    matmul dot_S1024x512_S512x64_S1024x64_1_0_0_1_n_n none A B (constant (F := Ideal) S1024x64 .f32 0x00000000#32) (ix2 r n)
      = ∑ k : Fin 512, A (ix2 r k) * B (ix2 k n) := by
  simp only [matmul]
  rw [Ideal.matmul_constant_zero_apply, ← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 r n) ((contrEquiv1 dot_S1024x512_S512x64_S1024x64_1_0_0_1_n_n 512 rfl rfl).symm k) = ix2 r k := funext fun a => Fin.ext (by
    match a with
    | ⟨0, _⟩ =>
      show (dot_S1024x512_S512x64_S1024x64_1_0_0_1_n_n.lhsIdx (ix2 r n) _ 0).val = r.val
      unfold DotDims.lhsIdx
      rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
      rfl
    | ⟨1, _⟩ => exact (dot_S1024x512_S512x64_S1024x64_1_0_0_1_n_n.lhsIdx_val_of_single rfl (ix2 r n) _).trans hk)
  have er : dot_S1024x512_S512x64_S1024x64_1_0_0_1_n_n.rhsIdx (ix2 r n) ((contrEquiv1 dot_S1024x512_S512x64_S1024x64_1_0_0_1_n_n 512 rfl rfl).symm k) = ix2 k n := funext fun a => Fin.ext (by
    match a with
    | ⟨0, _⟩ => exact (dot_S1024x512_S512x64_S1024x64_1_0_0_1_n_n.rhsIdx_val_of_single rfl (ix2 r n) _).trans hk
    | ⟨1, _⟩ =>
      show (dot_S1024x512_S512x64_S1024x64_1_0_0_1_n_n.rhsIdx (ix2 r n) _ 1).val = n.val
      unfold DotDims.rhsIdx
      rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
      rfl)
  rw [el, er]

/-- The scores: the features of row `r` against the features of key `n`, both contracted on their last axis (no transpose is made). Into the zero accumulator the product at (r, n) is the plain sum over the contracted axis. -/
theorem score_apply {φ₁ φ₂ : FTy} (A : FVec Ideal S1024x64 φ₁) (B : FVec Ideal S1024x64 φ₂) (r : Fin 1024) (n : Fin 1024) :
    matmul dot_S1024x64_S1024x64_S1024x1024_1_1_0_0_n_n none A B (constant (F := Ideal) S1024x1024 .f32 0x00000000#32) (ix2 r n)
      = ∑ k : Fin 64, A (ix2 r k) * B (ix2 n k) := by
  simp only [matmul]
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 r n) ((contrEquiv1 dot_S1024x64_S1024x64_S1024x1024_1_1_0_0_n_n 64 rfl rfl).symm k) = ix2 r k := funext fun a => Fin.ext (by
    match a with
    | ⟨0, _⟩ =>
      show (dot_S1024x64_S1024x64_S1024x1024_1_1_0_0_n_n.lhsIdx (ix2 r n) _ 0).val = r.val
      unfold DotDims.lhsIdx
      rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
      rfl
    | ⟨1, _⟩ => exact (dot_S1024x64_S1024x64_S1024x1024_1_1_0_0_n_n.lhsIdx_val_of_single rfl (ix2 r n) _).trans hk)
  have er : dot_S1024x64_S1024x64_S1024x1024_1_1_0_0_n_n.rhsIdx (ix2 r n) ((contrEquiv1 dot_S1024x64_S1024x64_S1024x1024_1_1_0_0_n_n 64 rfl rfl).symm k) = ix2 n k := funext fun a => Fin.ext (by
    match a with
    | ⟨0, _⟩ =>
      show (dot_S1024x64_S1024x64_S1024x1024_1_1_0_0_n_n.rhsIdx (ix2 r n) _ 0).val = n.val
      unfold DotDims.rhsIdx
      rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
      rfl
    | ⟨1, _⟩ => exact (dot_S1024x64_S1024x64_S1024x1024_1_1_0_0_n_n.rhsIdx_val_of_single rfl (ix2 r n) _).trans hk)
  rw [el, er]

/-- The weighted mean of the value rows. Into the zero accumulator the product at (r, n) is the plain sum over the contracted axis. -/
theorem mix_apply {φ₁ φ₂ : FTy} (A : FVec Ideal S1024x1024 φ₁) (B : FVec Ideal S1024x256 φ₂) (r : Fin 1024) (n : Fin 256) :
    matmul dot_S1024x1024_S1024x256_S1024x256_1_0_0_1_n_n none A B (constant (F := Ideal) S1024x256 .f32 0x00000000#32) (ix2 r n)
      = ∑ k : Fin 1024, A (ix2 r k) * B (ix2 k n) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r n) ((contrEquiv1 dot_S1024x1024_S1024x256_S1024x256_1_0_0_1_n_n 1024 rfl rfl).symm k) = ix2 r k := funext fun a => Fin.ext (by
    match a with
    | ⟨0, _⟩ =>
      show (dot_S1024x1024_S1024x256_S1024x256_1_0_0_1_n_n.lhsIdx (ix2 r n) _ 0).val = r.val
      unfold DotDims.lhsIdx
      rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
      rfl
    | ⟨1, _⟩ => exact (dot_S1024x1024_S1024x256_S1024x256_1_0_0_1_n_n.lhsIdx_val_of_single rfl (ix2 r n) _).trans hk)
  have er : dot_S1024x1024_S1024x256_S1024x256_1_0_0_1_n_n.rhsIdx (ix2 r n) ((contrEquiv1 dot_S1024x1024_S1024x256_S1024x256_1_0_0_1_n_n 1024 rfl rfl).symm k) = ix2 k n := funext fun a => Fin.ext (by
    match a with
    | ⟨0, _⟩ => exact (dot_S1024x1024_S1024x256_S1024x256_1_0_0_1_n_n.rhsIdx_val_of_single rfl (ix2 r n) _).trans hk
    | ⟨1, _⟩ =>
      show (dot_S1024x1024_S1024x256_S1024x256_1_0_0_1_n_n.rhsIdx (ix2 r n) _ 1).val = n.val
      unfold DotDims.rhsIdx
      rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
      rfl)
  rw [el, er]

/-- The output projection. Into the zero accumulator the product at (r, n) is the plain sum over the contracted axis. -/
theorem outproj_apply {φ₁ φ₂ : FTy} (A : FVec Ideal S1024x256 φ₁) (B : FVec Ideal S256x512 φ₂) (r : Fin 1024) (n : Fin 512) :
    matmul dot_S1024x256_S256x512_S1024x512_1_0_0_1_n_n none A B (constant (F := Ideal) S1024x512 .f32 0x00000000#32) (ix2 r n)
      = ∑ k : Fin 256, A (ix2 r k) * B (ix2 k n) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 r n) ((contrEquiv1 dot_S1024x256_S256x512_S1024x512_1_0_0_1_n_n 256 rfl rfl).symm k) = ix2 r k := funext fun a => Fin.ext (by
    match a with
    | ⟨0, _⟩ =>
      show (dot_S1024x256_S256x512_S1024x512_1_0_0_1_n_n.lhsIdx (ix2 r n) _ 0).val = r.val
      unfold DotDims.lhsIdx
      rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
      rfl
    | ⟨1, _⟩ => exact (dot_S1024x256_S256x512_S1024x512_1_0_0_1_n_n.lhsIdx_val_of_single rfl (ix2 r n) _).trans hk)
  have er : dot_S1024x256_S256x512_S1024x512_1_0_0_1_n_n.rhsIdx (ix2 r n) ((contrEquiv1 dot_S1024x256_S256x512_S1024x512_1_0_0_1_n_n 256 rfl rfl).symm k) = ix2 k n := funext fun a => Fin.ext (by
    match a with
    | ⟨0, _⟩ => exact (dot_S1024x256_S256x512_S1024x512_1_0_0_1_n_n.rhsIdx_val_of_single rfl (ix2 r n) _).trans hk
    | ⟨1, _⟩ =>
      show (dot_S1024x256_S256x512_S1024x512_1_0_0_1_n_n.rhsIdx (ix2 r n) _ 1).val = n.val
      unfold DotDims.rhsIdx
      rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
      rfl)
  rw [el, er]

end Cert.KernelIdeal.Body

end
-- ==== Proof.LibKeepdims.lean ====
/-
  A vector kept as a column, and a column laid along every column of a matrix, read at an index.

  A row reduction that keeps its axis (a row's maximum or sum, then subtracted from or divided into every entry of the
  row) is printed as a shape cast of the reduced vector [a] to a column [a, 1] followed by a broadcast of that column to
  [a, b]. At (p, c) the broadcast reads the column at (p, 0), which reads the vector at p.
-/
import Idealize.ShloMosaic.Lib.Pipeline.Value
import Idealize.ShloMosaic.Lib.ValueIdx

namespace Idealize.ShloMosaic.Keepdims

open Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid along every column of a matrix reads, at `(p, c)`, the vector at `p`. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Idealize.ShloMosaic.Keepdims
-- ==== Proof.AttentionSpec.lean ====
/-
  The function both programs compute, written once, index by index, on the extended reals.

  The input is a batch of 16 images of 64 × 64 pixels with 512 channels. Every pixel is a query; the keys and
  the values are taken from the image pooled 2 × 2 (32 × 32 = 1024 pooled pixels), which is passed in here as
  the array `P` and never opened: both programs compute it by the same host operations.
  For one query row `xr` (the 512 channels of one pixel of image `b`):
    f d   = ∑ k, xr k · Wf k d                        (64 query features)
    s k   = ∑ d, f d · g k d                          (a score per pooled pixel k, g the keys of image b)
    p k   = exp (s k − max s) / ∑ k', exp (s k' − max s)
    y d   = ∑ k, p k · h k d                          (256 features, h the values of image b)
    out c = (∑ d, y d · Wo d c) + xr c                (the residual)
  with keys g k d = ∑ c, P b k c · Wg c d and values h k d = ∑ c, P b k c · Wh c d.
  Nothing here is rearranged between the two programs — each sum is over the same index set with the same
  terms — so no law of the extended reals beyond `max ⊥ m = m` and `0 + x = x` is needed, and finiteness of the
  inputs is never used.
-/
import Idealize.ShloMosaic.PureOps.Ideal
import Idealize.ShloMosaic.Lib.ValueIdx

noncomputable section

namespace Cert.Attn

open Idealize.ShloMosaic Idealize.ShloMosaic.ValueIdx

/-- The value every row maximum is folded from: the f32 pattern of −∞ (never evaluated: the same word on both sides). -/
abbrev negInf : EReal := Ideal.ofBits .f32 0xFF800000#32

/-- The 64 query features of one row. -/
def queryRow (Wf : (⟨2, ![512, 64]⟩ : Shape).Idx → EReal) (xr : Fin 512 → EReal) (d : Fin 64) : EReal :=
  ∑ k : Fin 512, xr k * Wf (ix2 k d)

/-- The score of a row's features against each of the 1024 keys. -/
def scoreRow (f : Fin 64 → EReal) (g : Fin 1024 → Fin 64 → EReal) (k : Fin 1024) : EReal :=
  ∑ d : Fin 64, f d * g k d

/-- The largest score of a row, folded from −∞. -/
def rowMax (s : Fin 1024 → EReal) : EReal := (Finset.univ : Finset (Fin 1024)).fold max negInf s

/-- The shifted exponentials of a row's scores. -/
def expRow (s : Fin 1024 → EReal) (k : Fin 1024) : EReal := Ideal.exp (s k - rowMax s)

/-- The softmax of a row's scores. -/
def probRow (s : Fin 1024 → EReal) (k : Fin 1024) : EReal := Ideal.div (expRow s k) (∑ k' : Fin 1024, expRow s k')

/-- The weighted mean of the 1024 value rows. -/
def mixRow (p : Fin 1024 → EReal) (h : Fin 1024 → Fin 256 → EReal) (d : Fin 256) : EReal :=
  ∑ k : Fin 1024, p k * h k d

/-- The output projection of a mixed row, plus the query row itself. -/
def outRow (Wo : (⟨2, ![256, 512]⟩ : Shape).Idx → EReal) (y : Fin 256 → EReal) (xr : Fin 512 → EReal) (c : Fin 512) : EReal :=
  (∑ d : Fin 256, y d * Wo (ix2 d c)) + xr c

/-- One query row through the whole block. -/
def attnRow (Wf : (⟨2, ![512, 64]⟩ : Shape).Idx → EReal) (Wo : (⟨2, ![256, 512]⟩ : Shape).Idx → EReal)
    (g : Fin 1024 → Fin 64 → EReal) (h : Fin 1024 → Fin 256 → EReal) (xr : Fin 512 → EReal) (c : Fin 512) : EReal :=
  outRow Wo (mixRow (probRow (scoreRow (queryRow Wf xr) g)) h) xr c

/-- Pooled pixel `k` of image `b`, as the index of the pooled array: row `k / 32`, column `k % 32`. -/
abbrev pooledIdx (b : Fin 16) (k : Fin 1024) (c : Fin 512) : (⟨4, ![16, 32, 32, 512]⟩ : Shape).Idx :=
  ix4 b ⟨k.val / 32, by have := k.isLt; omega⟩ ⟨k.val % 32, by omega⟩ c

/-- The keys of image `b`. -/
def keys (P : (⟨4, ![16, 32, 32, 512]⟩ : Shape).Idx → EReal) (Wg : (⟨2, ![512, 64]⟩ : Shape).Idx → EReal)
    (b : Fin 16) (k : Fin 1024) (d : Fin 64) : EReal :=
  ∑ c : Fin 512, P (pooledIdx b k c) * Wg (ix2 c d)

/-- The values of image `b`. -/
def vals (P : (⟨4, ![16, 32, 32, 512]⟩ : Shape).Idx → EReal) (Wh : (⟨2, ![512, 256]⟩ : Shape).Idx → EReal)
    (b : Fin 16) (k : Fin 1024) (d : Fin 256) : EReal :=
  ∑ c : Fin 512, P (pooledIdx b k c) * Wh (ix2 c d)

/-- The whole result: pixel (i, j) of image `b` is a query row against the keys and values of image `b`. -/
def result (X : (⟨4, ![16, 64, 64, 512]⟩ : Shape).Idx → EReal) (P : (⟨4, ![16, 32, 32, 512]⟩ : Shape).Idx → EReal)
    (Wf : (⟨2, ![512, 64]⟩ : Shape).Idx → EReal) (Wg : (⟨2, ![512, 64]⟩ : Shape).Idx → EReal)
    (Wh : (⟨2, ![512, 256]⟩ : Shape).Idx → EReal) (Wo : (⟨2, ![256, 512]⟩ : Shape).Idx → EReal) :
    (⟨4, ![16, 64, 64, 512]⟩ : Shape).Idx → EReal := fun j =>
  attnRow Wf Wo (keys P Wg (j 0)) (vals P Wh (j 0)) (fun k => X (ix4 (j 0) (j 1) (j 2) k)) (j 3)

end Cert.Attn

end
-- ==== Proof.FusedBody.lean ====
/-
  One block of the fused attention body, read at one entry.

  The body takes a block of 1024 query rows `x` (with the keys `g`, the values `h` of the same image and the two
  weight matrices) and stores, at row r and channel c,
      (∑ d, y r d · Wo d c) + x r c,   y r d = ∑ k, p r k · h k d,   p r = softmax over k of  s r k = ∑ d, f r d · g k d,
      f r d = ∑ k, x r k · Wf k d.
  Each stage is named here as the printed operations spell it, the body is shown to be their composition, and each
  stage is read at an index: the products by the sums of the block products, the row maximum as a fold of `max` from −∞
  over the row, the row sum as the plain sum over the row, a reduced vector kept as a column and laid along the rows
  as the vector's entry at the row. Changes of float format are the identity on the extended reals.
-/
import proofs.«156543_j86423331930517_2_alg».proof.Proof.Gen.KernelIdeal.Skeleton
import proofs.«156543_j86423331930517_2_alg».proof.Proof.BlockProducts
import proofs.«156543_j86423331930517_2_alg».proof.Proof.LibKeepdims
import proofs.«156543_j86423331930517_2_alg».proof.Proof.AttentionSpec
import Idealize.ShloMosaic.Lib.ValueLayout

noncomputable section

namespace Cert.KernelIdeal.Body

open Cert.KernelIdeal Cert.KernelIdeal.Gen Idealize.ShloMosaic Idealize.ShloMosaic.ValueIdx

/-! ## The softmax stages, as printed -/

/-- The row maxima of a block of scores. -/
def rowMaxVec (S : FVec Ideal S1024x1024 .f32) : FVec Ideal S1024 .f32 :=
  multiReduction .maximumf [1] S1024 S 0xFF800000#32 reduces_S1024x1024_S1024 (.inl rfl) rfl

/-- The scores less their row's maximum, exponentiated. -/
def expVec (S : FVec Ideal S1024x1024 .f32) : FVec Ideal S1024x1024 .f32 :=
  exp (subf S (broadcastTo S1024x1024 (shapeCast S1024x1 (rowMaxVec S) shapeCasts_S1024_S1024x1) broadcasts_S1024x1_S1024x1024))

/-- The row sums of a block. -/
def rowSumVec (E : FVec Ideal S1024x1024 .f32) : FVec Ideal S1024 .f32 :=
  multiReduction .add [1] S1024 E 0x00000000#32 reduces_S1024x1024_S1024 (.inl rfl) rfl

/-- The softmax of each row of a block of scores. -/
def softmaxVec (S : FVec Ideal S1024x1024 .f32) : FVec Ideal S1024x1024 .f32 :=
  divf (expVec S) (broadcastTo S1024x1024 (shapeCast S1024x1 (rowSumVec (expVec S)) shapeCasts_S1024_S1024x1) broadcasts_S1024x1_S1024x1024)

/-- The reduction over a row inserts the reduced coordinate as the column. -/
theorem lift_row (r k : Fin 1024) : reduces_S1024x1024_S1024.lift (ix1 r) k = ix2 r k :=
  funext fun a => Fin.ext (by
    match a with
    | ⟨0, _⟩ => rfl
    | ⟨1, _⟩ => rfl)

/-- A row's maximum is the fold of `max` from −∞ over the row. -/
theorem rowMaxVec_apply (S : FVec Ideal S1024x1024 .f32) (r : Fin 1024) :
    rowMaxVec S (ix1 r) = Cert.Attn.rowMax (fun k => S (ix2 r k)) := by
  unfold rowMaxVec
  refine (Ideal.multiReduction_maximumf_single S 0xFF800000#32 reduces_S1024x1024_S1024 (.inl rfl) rfl (ix1 r)).trans ?_
  exact congrArg (fun f => (Finset.univ : Finset (Fin 1024)).fold max Cert.Attn.negInf f)
    (funext fun k => congrArg S (lift_row r k))

/-- A row's sum is the plain sum over the row (the accumulator is the zero the reduction starts from). -/
theorem rowSumVec_apply (E : FVec Ideal S1024x1024 .f32) (r : Fin 1024) :
    rowSumVec E (ix1 r) = ∑ k : Fin 1024, E (ix2 r k) := by
  unfold rowSumVec
  refine (Ideal.multiReduction_add_single E 0x00000000#32 reduces_S1024x1024_S1024 (.inl rfl) rfl (ix1 r)).trans ?_
  exact Finset.sum_congr rfl fun k _ => congrArg E (lift_row r k)

/-- The shifted exponential at (r, k). -/
theorem expVec_apply (S : FVec Ideal S1024x1024 .f32) (r k : Fin 1024) :
    expVec S (ix2 r k) = Cert.Attn.expRow (fun k' => S (ix2 r k')) k := by
  unfold expVec Cert.Attn.expRow
  show Ideal.exp (S (ix2 r k) - broadcastTo S1024x1024 (shapeCast S1024x1 (rowMaxVec S) shapeCasts_S1024_S1024x1) broadcasts_S1024x1_S1024x1024 (ix2 r k)) = _
  rw [Keepdims.column_apply (rowMaxVec S) shapeCasts_S1024_S1024x1 broadcasts_S1024x1_S1024x1024 r k, rowMaxVec_apply]

/-- The softmax at (r, k). -/
theorem softmaxVec_apply (S : FVec Ideal S1024x1024 .f32) (r k : Fin 1024) :
    softmaxVec S (ix2 r k) = Cert.Attn.probRow (fun k' => S (ix2 r k')) k := by
  unfold softmaxVec Cert.Attn.probRow
  show Ideal.div (expVec S (ix2 r k)) (broadcastTo S1024x1024 (shapeCast S1024x1 (rowSumVec (expVec S)) shapeCasts_S1024_S1024x1) broadcasts_S1024x1_S1024x1024 (ix2 r k)) = _
  rw [Keepdims.column_apply (rowSumVec (expVec S)) shapeCasts_S1024_S1024x1 broadcasts_S1024x1_S1024x1024 r k, rowSumVec_apply, expVec_apply]
  exact congrArg (Ideal.div _) (Finset.sum_congr rfl fun k' _ => expVec_apply S r k')

/-! ## The products around the softmax, as printed -/

/-- The scores of a block of rows against the keys of the image: the rows' query features, then their products with the key rows. -/
def scoresVec (x : FVec Ideal S1024x512 .f32) (wf : FVec Ideal S512x64 .f32) (g : FVec Ideal S1x1024x64 .bf16) : FVec Ideal S1024x1024 .f32 :=
  matmul dot_S1024x64_S1024x64_S1024x1024_1_1_0_0_n_n none
    (truncf .bf16 (matmul dot_S1024x512_S512x64_S1024x64_1_0_0_1_n_n none (truncf .bf16 x bitsLt_bf16_f32) (truncf .bf16 wf bitsLt_bf16_f32)
      (constant S1024x64 .f32 0x00000000#32)) bitsLt_bf16_f32)
    (shapeCast S1024x64 g shapeCasts_S1x1024x64_S1024x64 : FVec Ideal S1024x64 .bf16) (constant S1024x1024 .f32 0x00000000#32)

/-- The mixed value rows projected back to the channels. -/
def projectedVec (p : FVec Ideal S1024x1024 .f32) (h : FVec Ideal S1x1024x256 .bf16) (wo : FVec Ideal S256x512 .f32) : FVec Ideal S1024x512 .f32 :=
  matmul dot_S1024x256_S256x512_S1024x512_1_0_0_1_n_n none
    (truncf .bf16 (matmul dot_S1024x1024_S1024x256_S1024x256_1_0_0_1_n_n none (truncf .bf16 p bitsLt_bf16_f32)
      (shapeCast S1024x256 h shapeCasts_S1x1024x256_S1024x256 : FVec Ideal S1024x256 .bf16) (constant S1024x256 .f32 0x00000000#32)) bitsLt_bf16_f32)
    (truncf .bf16 wo bitsLt_bf16_f32) (constant S1024x512 .f32 0x00000000#32)

/-- What the body stores is the composition of the stages, plus the block of rows itself. -/
theorem payload_eq (v0 : FVec Ideal S1x1024x512 .f32) (v3 : FVec Ideal S512x64 .f32) (v7 : FVec Ideal S1x1024x64 .bf16)
    (v9 : FVec Ideal S1x1024x256 .bf16) (v23 : FVec Ideal S256x512 .f32) :
    k1_pay1 (F := Ideal) v0 v3 v7 v9 v23
      = shapeCast S1x1024x512
          (addf (projectedVec (softmaxVec (scoresVec (shapeCast S1024x512 v0 shapeCasts_S1x1024x512_S1024x512 : FVec Ideal S1024x512 .f32) v3 v7)) v9 v23)
            (shapeCast S1024x512 v0 shapeCasts_S1x1024x512_S1024x512 : FVec Ideal S1024x512 .f32))
          shapeCasts_S1024x512_S1x1024x512 := rfl

/-- The score of row r against key k. -/
theorem scoresVec_apply (x : FVec Ideal S1024x512 .f32) (wf : FVec Ideal S512x64 .f32) (g : FVec Ideal S1x1024x64 .bf16) (r k : Fin 1024) :
    scoresVec x wf g (ix2 r k)
      = Cert.Attn.scoreRow (Cert.Attn.queryRow wf (fun c => x (ix2 r c))) (fun k' d => g (ix3 (0 : Fin 1) k' d)) k := by
  unfold scoresVec Cert.Attn.scoreRow
  rw [score_apply]
  refine Finset.sum_congr rfl fun d _ => ?_
  show (matmul dot_S1024x512_S512x64_S1024x64_1_0_0_1_n_n none (truncf .bf16 x bitsLt_bf16_f32) (truncf .bf16 wf bitsLt_bf16_f32)
      (constant (F := Ideal) S1024x64 .f32 0x00000000#32)) (ix2 r d) * (shapeCast S1024x64 g shapeCasts_S1x1024x64_S1024x64 : FVec Ideal S1024x64 .bf16) (ix2 k d) = _
  rw [query_apply, shapeCast_1ab_ab_apply]
  rfl

/-- The projected mixture at row r and channel c. -/
theorem projectedVec_apply (p : FVec Ideal S1024x1024 .f32) (h : FVec Ideal S1x1024x256 .bf16) (wo : FVec Ideal S256x512 .f32)
    (r : Fin 1024) (c : Fin 512) :
    projectedVec p h wo (ix2 r c)
      = ∑ d : Fin 256, Cert.Attn.mixRow (fun k => p (ix2 r k)) (fun k d' => h (ix3 (0 : Fin 1) k d')) d * wo (ix2 d c) := by
  unfold projectedVec
  rw [outproj_apply]
  refine Finset.sum_congr rfl fun d _ => ?_
  show (matmul dot_S1024x1024_S1024x256_S1024x256_1_0_0_1_n_n none (truncf .bf16 p bitsLt_bf16_f32)
      (shapeCast S1024x256 h shapeCasts_S1x1024x256_S1024x256 : FVec Ideal S1024x256 .bf16) (constant (F := Ideal) S1024x256 .f32 0x00000000#32)) (ix2 r d) * wo (ix2 d c) = _
  rw [mix_apply]
  unfold Cert.Attn.mixRow
  refine congrArg (· * wo (ix2 d c)) (Finset.sum_congr rfl fun k _ => ?_)
  show p (ix2 r k) * (shapeCast S1024x256 h shapeCasts_S1x1024x256_S1024x256 : FVec Ideal S1024x256 .bf16) (ix2 k d) = _
  rw [shapeCast_1ab_ab_apply]

/-- THE BODY AT AN ENTRY: row r, channel c of the stored block is the query row `x r` through the whole attention block. -/
theorem payload_apply (v0 : FVec Ideal S1x1024x512 .f32) (v3 : FVec Ideal S512x64 .f32) (v7 : FVec Ideal S1x1024x64 .bf16)
    (v9 : FVec Ideal S1x1024x256 .bf16) (v23 : FVec Ideal S256x512 .f32) (r : Fin 1024) (c : Fin 512) :
    k1_pay1 (F := Ideal) v0 v3 v7 v9 v23 (ix3 (0 : Fin 1) r c)
      = Cert.Attn.attnRow v3 v23 (fun k d => v7 (ix3 (0 : Fin 1) k d)) (fun k d => v9 (ix3 (0 : Fin 1) k d))
          (fun k => v0 (ix3 (0 : Fin 1) r k)) c := by
  rw [payload_eq, shapeCast_ab_1ab_apply]
  show projectedVec _ v9 v23 (ix2 r c) + (shapeCast S1024x512 v0 shapeCasts_S1x1024x512_S1024x512 : FVec Ideal S1024x512 .f32) (ix2 r c) = _
  rw [projectedVec_apply, shapeCast_1ab_ab_apply]
  unfold Cert.Attn.attnRow Cert.Attn.outRow
  refine congrArg (· + v0 (ix3 (0 : Fin 1) r c)) (Finset.sum_congr rfl fun d _ => ?_)
  refine congrArg (· * v23 (ix2 d c)) ?_
  refine congrArg (fun p => Cert.Attn.mixRow p (fun k d' => v9 (ix3 (0 : Fin 1) k d')) d) (funext fun k => ?_)
  rw [softmaxVec_apply]
  refine congrArg (fun s => Cert.Attn.probRow s k) (funext fun k' => ?_)
  rw [scoresVec_apply]
  refine congrArg (fun xr => Cert.Attn.scoreRow (Cert.Attn.queryRow v3 xr) (fun k'' d' => v7 (ix3 (0 : Fin 1) k'' d')) k') (funext fun c' => ?_)
  rw [shapeCast_1ab_ab_apply]

end Cert.KernelIdeal.Body

end
-- ==== Proof.AttentionRegion.lean ====
/-
  The fused attention region: from what each grid point writes back to the whole output array.

  The grid has 16 × 4 points; point (b, q) takes rows 1024·q … 1024·q + 1023 of image b (all 512 channels), the keys
  and values of image b whole, and the two weight matrices whole, and writes back the same rows of the output. So the
  block of the output at a point is the restriction to those rows of ONE function of the arrays as the region finds
  them — row i₁ of image i₀ through the attention block against the keys and values of image i₀ — and the 64 blocks
  tile the output: after the region the output array is that function.
-/
import proofs.«156543_j86423331930517_2_alg».proof.Proof.Gen.KernelIdeal.Frame
import proofs.«156543_j86423331930517_2_alg».proof.Proof.FusedBody
import proofs.«156543_j86423331930517_2_alg».proof.Proof.AttentionSpec

set_option maxRecDepth 16384

noncomputable section

namespace Cert.KernelIdeal.Fused

open Cert.KernelIdeal Cert.KernelIdeal.Gen Idealize.ShloMosaic Idealize.ShloMosaic.TcCoe Idealize.ShloMosaic.ValueIdx
open Idealize.SL.Sem
open Idealize.ShloMosaic.Pipeline (Dat Cfg Window)

theorem zero3 : (![0, 0, 0] : Fin 3 → Nat) = fun _ => 0 := funext fun a => by fin_cases a <;> rfl
theorem zero2 : (![0, 0] : Fin 2 → Nat) = fun _ => 0 := funext fun a => by fin_cases a <;> rfl

/-- The attention block depends on its arguments only through their entries. -/
theorem attnRow_congr {wf wf' : (⟨2, ![512, 64]⟩ : Shape).Idx → EReal} {wo wo' : (⟨2, ![256, 512]⟩ : Shape).Idx → EReal}
    {g g' : Fin 1024 → Fin 64 → EReal} {h h' : Fin 1024 → Fin 256 → EReal} {xr xr' : Fin 512 → EReal} {c c' : Fin 512}
    (e1 : wf = wf') (e2 : wo = wo') (e3 : ∀ k d, g k d = g' k d) (e4 : ∀ k d, h k d = h' k d) (e5 : ∀ k, xr k = xr' k) (e6 : c = c') :
    Cert.Attn.attnRow wf wo g h xr c = Cert.Attn.attnRow wf' wo' g' h' xr' c' := by
  have e3' : g = g' := funext fun k => funext (e3 k)
  have e4' : h = h' := funext fun k => funext (e4 k)
  have e5' : xr = xr' := funext e5
  subst e1 e2 e3' e4' e5' e6
  rfl

/-- The output array as one function of the region's five input arrays: entry (i₀, i₁, i₂) is channel i₂ of row i₁ of
    image i₀ through the attention block, against the keys and values of image i₀. -/
def attnArr (x : S16x4096x512.Idx → EReal) (wf : S512x64.Idx → EReal) (g : S16x1024x64.Idx → EReal)
    (h : S16x1024x256.Idx → EReal) (wo : S256x512.Idx → EReal) : S16x4096x512.Idx → EReal := fun i =>
  Cert.Attn.attnRow wf wo (fun k d => g (ix3 (⟨(i 0).val, (i 0).isLt⟩ : Fin 16) k d))
    (fun k d => h (ix3 (⟨(i 0).val, (i 0).isLt⟩ : Fin 16) k d))
    (fun k => x (ix3 (⟨(i 0).val, (i 0).isLt⟩ : Fin 16) (⟨(i 1).val, (i 1).isLt⟩ : Fin 4096) k))
    (⟨(i 2).val, (i 2).isLt⟩ : Fin 512)

/-- The body's stored block at any entry `y`, over arbitrary loaded blocks. -/
theorem block_entry (x0 : FVec Ideal S1x1024x512 .f32) (x1 : FVec Ideal S512x64 .f32) (x2 : FVec Ideal S1x1024x64 .bf16)
    (x3 : FVec Ideal S1x1024x256 .bf16) (x4 : FVec Ideal S256x512 .f32) (y : S1x1024x512.Idx) :
    k1_pay1 (F := Ideal) x0 x1 x2 x3 x4 y
      = Cert.Attn.attnRow x1 x4 (fun k d => x2 (ix3 (0 : Fin 1) k d)) (fun k d => x3 (ix3 (0 : Fin 1) k d))
          (fun k => x0 (ix3 (0 : Fin 1) (⟨(y 1).val, (y 1).isLt⟩ : Fin 1024) k)) (⟨(y 2).val, (y 2).isLt⟩ : Fin 512) := by
  obtain ⟨u, r, ch, rfl⟩ : ∃ (u : Fin 1) (r : Fin 1024) (ch : Fin 512), y = ix3 u r ch := ⟨y 0, y 1, y 2, eq_ix3 y⟩
  have hu : u = 0 := Subsingleton.elim _ _
  subst hu
  exact Body.payload_apply x0 x1 x2 x3 x4 r ch

section Region
variable (V : (c : Dev nD) → (b : Ref sig .tc) → Buf (Elt Ideal) ((c : Thread nD τ).loc b))

/-- The printed index maps, decided over the 64 grid points: the rows window and the output window move together, the
    keys and the values follow the image, the weights stay. -/
theorem index_facts : ∀ t : Fin cfg1.N,
    win1_0.index t (0 : Fin 3) = win1_5.index t (0 : Fin 3) ∧ win1_0.index t (1 : Fin 3) = win1_5.index t (1 : Fin 3)
    ∧ win1_0.index t (2 : Fin 3) = 0
    ∧ win1_1.index t (0 : Fin 2) = 0 ∧ win1_1.index t (1 : Fin 2) = 0
    ∧ win1_2.index t (0 : Fin 3) = win1_5.index t (0 : Fin 3) ∧ win1_2.index t (1 : Fin 3) = 0 ∧ win1_2.index t (2 : Fin 3) = 0
    ∧ win1_3.index t (0 : Fin 3) = win1_5.index t (0 : Fin 3) ∧ win1_3.index t (1 : Fin 3) = 0 ∧ win1_3.index t (2 : Fin 3) = 0
    ∧ win1_4.index t (0 : Fin 2) = 0 ∧ win1_4.index t (1 : Fin 2) = 0
    ∧ win1_5.index t (2 : Fin 3) = 0 ∧ win1_5.index t (0 : Fin 3) < 16 ∧ win1_5.index t (1 : Fin 3) < 4 :=
  (by decide +kernel : ∀ t : Fin grid1.N, _)

/-- Every block of the output is some point's. -/
theorem index_onto : ∀ (q0 : Fin 16) (q1 : Fin 4), ∃ t : Fin cfg1.N, win1_5.index t = ![q0.val, q1.val, 0] :=
  (by decide +kernel : ∀ (q0 : Fin 16) (q1 : Fin 4), ∃ t : Fin grid1.N, win1_5.index t = ![q0.val, q1.val, 0])

/-- WHAT POINT `t` WRITES BACK is block `t` of `attnArr` of the arrays as the region finds them. -/
theorem flushed_eq (c : Dev nD) (t : Fin cfg1.N) :
    (dat1 V c).flushed 5 t = ((cfg1.win 5).blk t).view.read (Elt Ideal)
      (attnArr (V c main_v0) (V c main_arg1) (V c main_v9) (V c main_v11) (V c main_arg4)) := by
  show (cfg1.win 5).cut (grid1.coords t) ((dat1 V c).after 5 t) = _
  rw [after1_5]
  unfold out1_5
  rw [View.canon_unit_zero zero3]
  simp only [View.ld_unit_zero (S := S1x1024x512) zero3, View.ld_unit_zero (S := S512x64) zero2,
    View.ld_unit_zero (S := S1x1024x64) zero3, View.ld_unit_zero (S := S1x1024x256) zero3, View.ld_unit_zero (S := S256x512) zero2]
  obtain ⟨e00, e01, e02, e10, e11, e20, e21, e22, e30, e31, e32, e40, e41, e52, b50, b51⟩ := index_facts t
  funext y
  show k1_pay1 (F := Ideal) (iblk1 V c 0 t) (iblk1 V c 1 t) (iblk1 V c 2 t) (iblk1 V c 3 t) (iblk1 V c 4 t) y
    = attnArr (V c main_v0) (V c main_arg1) (V c main_v9) (V c main_v11) (V c main_arg4) (((cfg1.win 5).blk t).view.emb y)
  refine (block_entry (iblk1 V c 0 t) (iblk1 V c 1 t) (iblk1 V c 2 t) (iblk1 V c 3 t) (iblk1 V c 4 t) y).trans ?_
  unfold attnArr
  have hy1 : (y 0).val < 1 := (y 0).isLt
  have hy0 : (y 0).val = 0 := by omega
  refine attnRow_congr ?_ ?_ ?_ ?_ ?_ ?_
  · funext z
    show V c main_arg1 (((cfg1.win 1).blk t).view.emb z) = V c main_arg1 z
    refine congrArg (V c main_arg1) (funext fun a => Fin.ext ?_)
    match a with
    | ⟨0, _⟩ => show win1_1.index t (0 : Fin 2) * 512 + 1 * (z 0).val = (z 0).val; omega
    | ⟨1, _⟩ => show win1_1.index t (1 : Fin 2) * 64 + 1 * (z 1).val = (z 1).val; omega
  · funext z
    show V c main_arg4 (((cfg1.win 4).blk t).view.emb z) = V c main_arg4 z
    refine congrArg (V c main_arg4) (funext fun a => Fin.ext ?_)
    match a with
    | ⟨0, _⟩ => show win1_4.index t (0 : Fin 2) * 256 + 1 * (z 0).val = (z 0).val; omega
    | ⟨1, _⟩ => show win1_4.index t (1 : Fin 2) * 512 + 1 * (z 1).val = (z 1).val; omega
  · intro k d
    show V c main_v9 (((cfg1.win 2).blk t).view.emb (ix3 (0 : Fin 1) k d)) = V c main_v9 _
    refine congrArg (V c main_v9) (funext fun a => Fin.ext ?_)
    match a with
    | ⟨0, _⟩ => show win1_2.index t (0 : Fin 3) * 1 + 1 * 0 = win1_5.index t (0 : Fin 3) * 1 + 1 * (y 0).val; omega
    | ⟨1, _⟩ => show win1_2.index t (1 : Fin 3) * 1024 + 1 * k.val = k.val; omega
    | ⟨2, _⟩ => show win1_2.index t (2 : Fin 3) * 64 + 1 * d.val = d.val; omega
  · intro k d
    show V c main_v11 (((cfg1.win 3).blk t).view.emb (ix3 (0 : Fin 1) k d)) = V c main_v11 _
    refine congrArg (V c main_v11) (funext fun a => Fin.ext ?_)
    match a with
    | ⟨0, _⟩ => show win1_3.index t (0 : Fin 3) * 1 + 1 * 0 = win1_5.index t (0 : Fin 3) * 1 + 1 * (y 0).val; omega
    | ⟨1, _⟩ => show win1_3.index t (1 : Fin 3) * 1024 + 1 * k.val = k.val; omega
    | ⟨2, _⟩ => show win1_3.index t (2 : Fin 3) * 256 + 1 * d.val = d.val; omega
  · intro k
    show V c main_v0 (((cfg1.win 0).blk t).view.emb (ix3 (0 : Fin 1) (⟨(y 1).val, (y 1).isLt⟩ : Fin 1024) k)) = V c main_v0 _
    refine congrArg (V c main_v0) (funext fun a => Fin.ext ?_)
    match a with
    | ⟨0, _⟩ => show win1_0.index t (0 : Fin 3) * 1 + 1 * 0 = win1_5.index t (0 : Fin 3) * 1 + 1 * (y 0).val; omega
    | ⟨1, _⟩ => show win1_0.index t (1 : Fin 3) * 1024 + 1 * (y 1).val = win1_5.index t (1 : Fin 3) * 1024 + 1 * (y 1).val; omega
    | ⟨2, _⟩ => show win1_0.index t (2 : Fin 3) * 512 + 1 * k.val = k.val; omega
  · refine Fin.ext ?_
    show (y 2).val = win1_5.index t (2 : Fin 3) * 512 + 1 * (y 2).val
    omega

/-- An index of the output array is in point `t`'s block iff each coordinate is in the block's range on its axis. -/
theorem mem_blk (t : Fin cfg1.N) (i : S16x4096x512.Idx) :
    i ∈ ((cfg1.win 5).blk t).view.set ↔ ∀ a : Fin 3, win1_5.index t a * S1x1024x512.size a ≤ (i a).val
      ∧ (i a).val < win1_5.index t a * S1x1024x512.size a + S1x1024x512.size a := by
  show i ∈ ((View.whole main_v12).slice (win1_5.rect t)).set ↔ _
  rw [View.set_slice_whole, Rect.mem_set_unit]
  exact Iff.rfl

/-- The 64 blocks cover the output array: row i₁ of image i₀ is in the block of point (i₀, i₁ / 1024). -/
theorem covered (i : S16x4096x512.Idx) :
    ∃ t : Fin cfg1.N, (cfg1.win 5).flush t = true ∧ i ∈ ((cfg1.win 5).blk t).view.set := by
  have h0 : (i 0).val < 16 := (i 0).isLt
  have h1 : (i 1).val < 4096 := (i 1).isLt
  have h2 : (i 2).val < 512 := (i 2).isLt
  obtain ⟨t, ht⟩ := index_onto ⟨(i 0).val, h0⟩ ⟨(i 1).val / 1024, by omega⟩
  have q0 : win1_5.index t (0 : Fin 3) = (i 0).val := congrFun ht 0
  have q1 : win1_5.index t (1 : Fin 3) = (i 1).val / 1024 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 512 ≤ (i 2).val ∧ (i 2).val < win1_5.index t (2 : Fin 3) * 512 + 512; omega

/-- THE OUTPUT ARRAY after the region: `attnArr` of the five input arrays as the region finds them. -/
theorem attended (c : Dev nD) :
    (dat1 V c).arrAt 5 cfg1.N = attnArr (V c main_v0) (V c main_arg1) (V c main_v9) (V c main_v11) (V c main_arg4) :=
  (dat1 V c).arrAt_eq_of_cover 5 _ (fun t _ => flushed_eq V c t) covered

end Region

end Cert.KernelIdeal.Fused

end
-- ==== Proof.ResultBoundary.lean ====
/-
  The boundaries around the fused attention region, read.

  Before the region the host has reshaped the input images [16, 64, 64, 512] into rows [16, 4096, 512]; the query
  weights and the output weights reach the region untouched. After the region one reshape turns the rows
  [16, 4096, 512] back into images. (The keys and the values, which the first region and two slices produce, are
  read elsewhere.)
-/
import proofs.«156543_j86423331930517_2_alg».proof.Proof.Gen.KernelIdeal.Frame
import Idealize.ShloMosaic.PureOps.Ideal

set_option maxRecDepth 16384

noncomputable section

namespace Cert.KernelIdeal.Boundary

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg)

/-- The result buffer at the end: the fused region's output array, reshaped to images. -/
theorem result_eq (c : Dev nD) :
    W5 m ρ c (Proc.devRef .tc main_v13)
      = shapeCast S16x64x64x512 ((dat1 (V3 m ρ) c).arrAt 5 cfg1.N) shapeCasts_S16x4096x512_S16x64x64x512 := by
  show StableHlo.after hostOps2 (W4 m ρ c) (Proc.devRef .tc main_v13) = _
  after_results
  exact congrArg (fun z => shapeCast S16x64x64x512 z shapeCasts_S16x4096x512_S16x64x64x512) (W4_arr m ρ c 5)

/-- The rows the fused region reads: the input images reshaped. -/
theorem rows_eq (c : Dev nD) :
    V3 m ρ c main_v0 = shapeCast S16x4096x512 (m ((c : Thread nD τ).loc main_arg0)) shapeCasts_S16x64x64x512_S16x4096x512 := by
  show StableHlo.after hostOps1 (W2 m ρ c) (Proc.devRef .tc main_v0) = _
  after_results
  rw [W2_of_ne m ρ c main_v0 (by decide)]
  show StableHlo.after hostOps0 (W0 m ρ c) (Proc.devRef .tc main_v0) = _
  after_results
  rfl

/-- The query weights reach the fused region as launched. -/
theorem queryWeights_eq (c : Dev nD) : V3 m ρ c main_arg1 = m ((c : Thread nD τ).loc main_arg1) := by
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results

/-- The output weights reach the fused region as launched. -/
theorem outputWeights_eq (c : Dev nD) : V3 m ρ c main_arg4 = m ((c : Thread nD τ).loc main_arg4) := by
  show StableHlo.after hostOps1 (W2 m ρ c) (Proc.devRef .tc main_arg4) = _
  after_results
  rw [W2_of_ne m ρ c main_arg4 (by decide)]
  show StableHlo.after hostOps0 (W0 m ρ c) (Proc.devRef .tc main_arg4) = _
  after_results

end Cert.KernelIdeal.Boundary

end
-- ==== Proof.KeyValueArrays.lean ====
/-
  The key and value arrays the projection kernel leaves, read at an entry.

  The kernel multiplies each block of 1024 pooled rows by the stacked key and value weights. Read on the extended
  reals, a block's entry (r, n) is the sum over the 512 channels of the block's row r against column n of the stacked
  weights; the sixteen blocks tile the 16384 × 320 result, so the whole result is that sum at every entry. Its first 64
  columns, regrouped by image, are the keys of the specification, and the remaining 256 the values: row 1024·b + k of
  the flattened pooled input is pooled pixel (k / 32, k % 32) of image b, and columns 0..63 of the stacked weights
  are the key weights, columns 64..319 the value weights.
-/
import proofs.«156543_j86423331930517_2_alg».proof.Proof.Gen.KernelIdeal.Frame
import proofs.«156543_j86423331930517_2_alg».proof.Proof.BlockProducts
import proofs.«156543_j86423331930517_2_alg».proof.Proof.AttentionSpec
import Idealize.ShloMosaic.Lib.Pipeline.Value
import Idealize.ShloMosaic.Lib.ValueLayout
import Idealize.ShloMosaic.Lib.ValueIdx

set_option maxRecDepth 16384

noncomputable section

namespace Cert.KernelIdeal.KeyValue

open Cert.KernelIdeal Cert.KernelIdeal.Gen Idealize.ShloMosaic Idealize.ShloMosaic.ValueIdx
open Idealize.ShloMosaic.TcCoe Idealize.SL.Sem
open Idealize.ShloMosaic.Pipeline (Dat Cfg Window)

/-- One entry of a projected block: row `r` of the block of pooled rows against column `n` of the stacked weights.
    The roundings to the narrower format are the identity on the extended reals, and the product accumulates into zero. -/
theorem block_entry (x0 : FVec Ideal S1024x512 .f32) (x1 : FVec Ideal S512x320 .f32) (r : Fin 1024) (n : Fin 320) :
    k0_pay1 (F := Ideal) x0 x1 (ix2 r n) = ∑ k : Fin 512, x0 (ix2 r k) * x1 (ix2 k n) := by
  unfold k0_pay1
  refine (Body.proj_apply (φ₁ := .bf16) (φ₂ := .bf16)
    (truncf .bf16 (shapeCast S1024x512 x0 shapeCasts_S1024x512_S1024x512) bitsLt_bf16_f32)
    (truncf .bf16 (shapeCast S512x320 x1 shapeCasts_S512x320_S512x320) bitsLt_bf16_f32) r n).trans ?_
  refine Finset.sum_congr rfl fun k _ => ?_
  show shapeCast S1024x512 x0 shapeCasts_S1024x512_S1024x512 (ix2 r k)
      * shapeCast S512x320 x1 shapeCasts_S512x320_S512x320 (ix2 k n) = _
  rw [shapeCast_self, shapeCast_self]

/-- The whole projection, entry by entry: row `i 0` of the flattened pooled input against column `i 1` of the stacked weights. -/
def projArr (A : S16384x512.Idx → EReal) (B : S512x320.Idx → EReal) : S16384x320.Idx → EReal :=
  fun i => ∑ k : Fin 512, A (ix2 ⟨(i 0).val, (i 0).isLt⟩ k) * B (ix2 k ⟨(i 1).val, (i 1).isLt⟩)

theorem zero_offsets : (![0, 0] : Fin 2 → Nat) = fun _ => 0 := funext fun a => by fin_cases a <;> rfl

/-- The block indices over the grid: the pooled rows' block moves with the result's block along the rows, the weights
    stay whole, and nothing moves along the columns. -/
theorem blockIndex_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) < 16 :=
  (by decide +kernel : ∀ t : Fin grid0.N, _)

/-- Every one of the sixteen row blocks of the result is some point's. -/
theorem blockIndex_onto : ∀ q : Fin 16, ∃ t : Fin cfg0.N, win0_2.index t = ![q.val, 0] :=
  (by decide +kernel : ∀ q : Fin 16, ∃ t : Fin grid0.N, win0_2.index t = ![q.val, 0])

/-- One entry of the block at row offset `1024 · q`: when the block of pooled rows holds rows `1024 · q + r` of `A` and
    the weights' block is all of `B`, entry `y` of the projected block is entry `i` of the whole projection, `i` being
    `y` moved down by the row offset. -/
theorem block_point (X0 : FVec Ideal S1024x512 .f32) (X1 : FVec Ideal S512x320 .f32)
    (A : S16384x512.Idx → EReal) (B : S512x320.Idx → EReal) (q : Nat) (hq : q < 16)
    (h0 : ∀ (r : Fin 1024) (k : Fin 512), X0 (ix2 r k) = A (ix2 ⟨q * 1024 + r.val, by have := r.isLt; omega⟩ k))
    (h1 : ∀ (k : Fin 512) (n : Fin 320), X1 (ix2 k n) = B (ix2 k n))
    (y : S1024x320.Idx) (i : S16384x320.Idx) (hi0 : (i 0).val = q * 1024 + (y 0).val) (hi1 : (i 1).val = (y 1).val) :
    k0_pay1 (F := Ideal) X0 X1 y = projArr A B i := by
  obtain ⟨r, n, rfl⟩ : ∃ (r : Fin 1024) (n : Fin 320), y = ix2 r n := ⟨y 0, y 1, eq_ix2 y⟩
  rw [block_entry]
  unfold projArr
  refine Finset.sum_congr rfl fun k _ => ?_
  rw [h0, h1]
  have e0 : (ix2 (⟨q * 1024 + r.val, by have := r.isLt; omega⟩ : Fin 16384) k : S16384x512.Idx)
      = ix2 ⟨(i 0).val, (i 0).isLt⟩ k := funext fun a => Fin.ext (by
    match a with
    | ⟨0, _⟩ => exact hi0.symm
    | ⟨1, _⟩ => rfl)
  have e1 : (ix2 k n : S512x320.Idx) = ix2 k ⟨(i 1).val, (i 1).isLt⟩ := funext fun a => Fin.ext (by
    match a with
    | ⟨0, _⟩ => rfl
    | ⟨1, _⟩ => exact hi1.symm)
  exact congrArg₂ (· * ·) (congrArg A e0) (congrArg B e1)

section Regions
variable (V : (c : Dev nD) → (b : Ref sig .tc) → Buf (Elt Ideal) ((c : Thread nD τ).loc b))

/-- What point `t` writes back is block `t` of the whole projection of the two arrays as the region finds them. -/
theorem block_written (c : Dev nD) (t : Fin cfg0.N) :
    (dat0 V c).flushed 2 t = ((cfg0.win 2).blk t).view.read (Elt Ideal) (projArr (V c main_v5) (V c main_v6)) := by
  show (cfg0.win 2).cut (grid0.coords t) ((dat0 V c).after 2 t) = _
  rw [after0_2]
  unfold out0_2
  rw [View.canon_unit_zero zero_offsets]
  simp only [View.ld_unit_zero (S := S1024x512) zero_offsets, View.ld_unit_zero (S := S512x320) zero_offsets]
  obtain ⟨e0, e1, e2, e3, e4, e5⟩ := blockIndex_facts t
  funext y
  show k0_pay1 (F := Ideal) (iblk0 V c 0 t) (iblk0 V c 1 t) y
    = projArr (V c main_v5) (V c main_v6) (((cfg0.win 2).blk t).view.emb y)
  refine block_point _ _ _ _ (win0_2.index t (0 : Fin 2)) e5 ?_ ?_ y _ ?_ ?_
  · intro r k
    show V c main_v5 (((cfg0.win 0).blk t).view.emb (ix2 r k)) = V c main_v5 (ix2 ⟨win0_2.index t (0 : Fin 2) * 1024 + r.val, _⟩ k)
    refine congrArg (V c main_v5) (funext fun a => Fin.ext ?_)
    match a with
    | ⟨0, _⟩ => show win0_0.index t (0 : Fin 2) * 1024 + 1 * r.val = win0_2.index t (0 : Fin 2) * 1024 + r.val; omega
    | ⟨1, _⟩ => show win0_0.index t (1 : Fin 2) * 512 + 1 * k.val = k.val; omega
  · intro k n
    show V c main_v6 (((cfg0.win 1).blk t).view.emb (ix2 k n)) = V c main_v6 (ix2 k n)
    refine congrArg (V c main_v6) (funext fun a => Fin.ext ?_)
    match a with
    | ⟨0, _⟩ => show win0_1.index t (0 : Fin 2) * 512 + 1 * k.val = k.val; omega
    | ⟨1, _⟩ => show win0_1.index t (1 : Fin 2) * 320 + 1 * n.val = n.val; omega
  · show win0_2.index t (0 : Fin 2) * 1024 + 1 * (y 0).val = win0_2.index t (0 : Fin 2) * 1024 + (y 0).val; omega
  · show win0_2.index t (1 : Fin 2) * 320 + 1 * (y 1).val = (y 1).val; omega

/-- An entry of the result is in point `t`'s block iff each coordinate is in the block's range on its axis. -/
theorem mem_block (t : Fin cfg0.N) (i : S16384x320.Idx) :
    i ∈ ((cfg0.win 2).blk t).view.set ↔ ∀ a : Fin 2, win0_2.index t a * S1024x320.size a ≤ (i a).val
      ∧ (i a).val < win0_2.index t a * S1024x320.size a + S1024x320.size a := by
  show i ∈ ((View.whole main_v7).slice (win0_2.rect t)).set ↔ _
  rw [View.set_slice_whole, Rect.mem_set_unit]
  exact Iff.rfl

/-- Every entry of the result is in some point's block: row `i 0` is in block `i 0 / 1024`, and every point writes back. -/
theorem covered (i : S16384x320.Idx) :
    ∃ t : Fin cfg0.N, (cfg0.win 2).flush t = true ∧ i ∈ ((cfg0.win 2).blk t).view.set := by
  have hi0 : (i 0).val < 16384 := (i 0).isLt
  have hi1 : (i 1).val < 320 := (i 1).isLt
  obtain ⟨t, ht⟩ := blockIndex_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 320 ≤ (i 1).val ∧ (i 1).val < win0_2.index t (1 : Fin 2) * 320 + 320; omega

/-- The result array after the region: the whole projection of the pooled rows and the stacked weights. -/
theorem projected (c : Dev nD) : (dat0 V c).arrAt 2 cfg0.N = projArr (V c main_v5) (V c main_v6) :=
  (dat0 V c).arrAt_eq_of_cover 2 (projArr (V c main_v5) (V c main_v6)) (fun t _ => block_written V c t) covered

end Regions

/-- The 2 × 2 mean pool of the input, exactly as the host operations before the first region spell it; never opened. -/
def pooled (x : FVec Ideal S16x64x64x512 .f32) : FVec Ideal S16x32x32x512 .f32 :=
  Host.divf (F := Ideal)
    (Host.reduceAdd (F := Ideal) (shapeCast S16x32x2x32x2x512 x shapeCasts_S16x64x64x512_S16x32x2x32x2x512)
      (constant (F := Ideal) S_ .f32 0x00000000#32) reducesTo_S16x32x2x32x2x512_S16x32x32x512_d2_4 h_S_)
    (broadcastInDim S16x32x32x512 ![] bcast_S_S16x32x32x512 (constant (F := Ideal) S_ .f32 0x40800000#32))

section Run
variable (m : (ℓ : Loc nD τ sig) → Buf (Elt Ideal) ℓ) (ρ : Dev nD → PrngReg)

/-- Entering the first region, the pooled rows are the pooled input flattened to 16384 rows. -/
theorem pooledRows_eq (c : Dev nD) :
    V1 m ρ c main_v5
      = shapeCast S16384x512 (pooled (m ((c : Thread nD τ).loc main_arg0))) shapeCasts_S16x32x32x512_S16384x512 := by
  show StableHlo.after hostOps0 (W0 m ρ c) (Proc.devRef .tc main_v5) = _
  after_results
  rfl

/-- Entering the first region, the stacked weights are the key weights beside the value weights. -/
theorem stackedWeights_eq (c : Dev nD) :
    V1 m ρ c main_v6
      = concatenate S512x320 1 [⟨S512x64, m ((c : Thread nD τ).loc main_arg2)⟩, ⟨S512x256, m ((c : Thread nD τ).loc main_arg3)⟩]
          concatenates_S512x64_S512x256_S512x320_d1 := by
  show StableHlo.after hostOps0 (W0 m ρ c) (Proc.devRef .tc main_v6) = _
  after_results

/-- Entering the second region, the key array is the first 64 columns of the projection, regrouped by image. -/
theorem keyArray_eq (c : Dev nD) :
    V3 m ρ c main_v9
      = shapeCast S16x1024x64 (extractStridedSlice S16384x64 ![0, 0] ((dat0 (V1 m ρ) c).arrAt 2 cfg0.N)
          slices_S16384x320_S16384x64_0_0) shapeCasts_S16384x64_S16x1024x64 := by
  show StableHlo.after hostOps1 (W2 m ρ c) (Proc.devRef .tc main_v9) = _
  after_results
  rw [show W2 m ρ c (Proc.devRef .tc main_v7) = (dat0 (V1 m ρ) c).arrAt 2 cfg0.N from W2_arr m ρ c 2]
  rfl

/-- Entering the second region, the value array is the last 256 columns of the projection, regrouped by image. -/
theorem valueArray_eq (c : Dev nD) :
    V3 m ρ c main_v11
      = shapeCast S16x1024x256 (extractStridedSlice S16384x256 ![0, 64] ((dat0 (V1 m ρ) c).arrAt 2 cfg0.N)
          slices_S16384x320_S16384x256_0_64) shapeCasts_S16384x256_S16x1024x256 := by
  show StableHlo.after hostOps1 (W2 m ρ c) (Proc.devRef .tc main_v11) = _
  after_results
  rw [show W2 m ρ c (Proc.devRef .tc main_v7) = (dat0 (V1 m ρ) c).arrAt 2 cfg0.N from W2_arr m ρ c 2]
  rfl

end Run

section Entries
variable (m : (ℓ : Loc nD τ sig) → Buf (Elt Ideal) ℓ) (ρ : Dev nD → PrngReg)

/-- Row `1024 · b + k` of the flattened pooled input is pooled pixel (k / 32, k % 32) of image `b`. -/
theorem pooledRows_entry (c : Dev nD) (b : Fin 16) (k : Fin 1024) (c' : Fin 512) :
    V1 m ρ c main_v5 (ix2 (⟨b.val * 1024 + k.val, by have := b.isLt; have := k.isLt; omega⟩ : Fin 16384) c')
      = pooled (m ((c : Thread nD τ).loc main_arg0)) (Cert.Attn.pooledIdx b k c') := by
  have hb := b.isLt; have hk := k.isLt; have hc := c'.isLt
  rw [pooledRows_eq]
  refine shapeCast_apply _ _ _ _ ?_
  rw [Shape.rowMajor_val_four, Shape.rowMajor_val_two]
  show ((b.val * 32 + k.val / 32) * 32 + k.val % 32) * 512 + c'.val = (b.val * 1024 + k.val) * 512 + c'.val
  omega

/-- Columns 0..63 of the stacked weights are the key weights. -/
theorem stacked_left (c : Dev nD) (c' : Fin 512) (d : Fin 64) :
    V1 m ρ c main_v6 (ix2 c' (⟨d.val, by have := d.isLt; omega⟩ : Fin 320))
      = m ((c : Thread nD τ).loc main_arg2) (ix2 c' d) := by
  rw [stackedWeights_eq]
  exact concatenate_pair_apply_left (1 : Fin S512x320.rank) _ _ concatenates_S512x64_S512x256_S512x320_d1 _ rfl
    (ix2 c' d) (fun a => by
      match a with
      | ⟨0, _⟩ => rfl
      | ⟨1, _⟩ => rfl)

/-- Columns 64..319 of the stacked weights are the value weights. -/
theorem stacked_right (c : Dev nD) (c' : Fin 512) (d : Fin 256) :
    V1 m ρ c main_v6 (ix2 c' (⟨64 + d.val, by have := d.isLt; omega⟩ : Fin 320))
      = m ((c : Thread nD τ).loc main_arg3) (ix2 c' d) := by
  rw [stackedWeights_eq]
  exact concatenate_pair_apply_right (1 : Fin S512x320.rank) _ _ concatenates_S512x64_S512x256_S512x320_d1 _ rfl rfl
    (ix2 c' d) (fun a ha => by
      match a with
      | ⟨0, _⟩ => rfl
      | ⟨1, _⟩ => exact absurd rfl ha)
    (by show d.val + 64 = 64 + d.val; omega)

/-- The projection at row `1024 · b + k`, column `n`: pooled pixel `k` of image `b` against column `n` of the stacked weights. -/
theorem projection_entry (c : Dev nD) (b : Fin 16) (k : Fin 1024) (n : Fin 320) :
    (dat0 (V1 m ρ) c).arrAt 2 cfg0.N (ix2 (⟨b.val * 1024 + k.val, by have := b.isLt; have := k.isLt; omega⟩ : Fin 16384) n)
      = ∑ c' : Fin 512, pooled (m ((c : Thread nD τ).loc main_arg0)) (Cert.Attn.pooledIdx b k c')
          * V1 m ρ c main_v6 (ix2 c' n) := by
  rw [projected]
  unfold projArr
  refine Finset.sum_congr (M := EReal) rfl fun c' _ => ?_
  rw [← pooledRows_entry m ρ c b k c']

/-- THE KEYS: the key array the second region is entered with holds, at (b, k, d), the specification's key of pooled
    pixel `k` of image `b`. -/
theorem keys_entry (c : Dev nD) (b : Fin 16) (k : Fin 1024) (d : Fin 64) :
    V3 m ρ c main_v9 (ix3 b k d)
      = Cert.Attn.keys (pooled (m ((c : Thread nD τ).loc main_arg0))) (m ((c : Thread nD τ).loc main_arg2)) b k d := by
  have hb := b.isLt; have hk := k.isLt; have hd := d.isLt
  rw [keyArray_eq]
  refine (shapeCast_apply _ _ _ (ix2 (⟨b.val * 1024 + k.val, by omega⟩ : Fin 16384) d) ?_).trans ?_
  · rw [Shape.rowMajor_val_two, Shape.rowMajor_val_three]
    show (b.val * 1024 + k.val) * 64 + d.val = (b.val * 1024 + k.val) * 64 + d.val
    rfl
  refine (slice2_axis1_apply 0 _ slices_S16384x320_S16384x64_0_0 _ d (⟨d.val, by omega⟩ : Fin 320)
    (by show d.val = 0 + d.val; omega)).trans ?_
  rw [projection_entry]
  unfold Cert.Attn.keys
  refine Finset.sum_congr (M := EReal) rfl fun c' _ => ?_
  rw [stacked_left]

/-- THE VALUES: the value array the second region is entered with holds, at (b, k, d), the specification's value of
    pooled pixel `k` of image `b`. -/
theorem vals_entry (c : Dev nD) (b : Fin 16) (k : Fin 1024) (d : Fin 256) :
    V3 m ρ c main_v11 (ix3 b k d)
      = Cert.Attn.vals (pooled (m ((c : Thread nD τ).loc main_arg0))) (m ((c : Thread nD τ).loc main_arg3)) b k d := by
  have hb := b.isLt; have hk := k.isLt; have hd := d.isLt
  rw [valueArray_eq]
  refine (shapeCast_apply _ _ _ (ix2 (⟨b.val * 1024 + k.val, by omega⟩ : Fin 16384) d) ?_).trans ?_
  · rw [Shape.rowMajor_val_two, Shape.rowMajor_val_three]
    show (b.val * 1024 + k.val) * 256 + d.val = (b.val * 1024 + k.val) * 256 + d.val
    rfl
  refine (slice2_axis1_apply 64 _ slices_S16384x320_S16384x256_0_64 _ d (⟨64 + d.val, by omega⟩ : Fin 320) rfl).trans ?_
  rw [projection_entry]
  unfold Cert.Attn.vals
  refine Finset.sum_congr (M := EReal) rfl fun c' _ => ?_
  rw [stacked_right]

end Entries

end Cert.KernelIdeal.KeyValue

end
-- ==== Proof.KernelIsSpec.lean ====
/-
  The idealized kernel computes the attention block of the specification.

  The result buffer at the end of the run is the fused region's output array reshaped to images: pixel (i, p) of image b
  is row 64·i + p of the flattened image. That row of the output array is the row's 512 channels through the attention
  block, against the keys and the values of image b — which the first region computed from the pooled input, and which
  are the specification's keys and values — with the weights as launched.
-/
import proofs.«156543_j86423331930517_2_alg».proof.Proof.AttentionRegion
import proofs.«156543_j86423331930517_2_alg».proof.Proof.ResultBoundary
import proofs.«156543_j86423331930517_2_alg».proof.Proof.KeyValueArrays
import proofs.«156543_j86423331930517_2_alg».proof.Proof.AttentionSpec

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- One entry of the result: channel `ch` of pixel (i, p) of image b. -/
theorem result_entry (c : Dev nD) (b : Fin 16) (i p : Fin 64) (ch : Fin 512) :
    W5 m ρ c (Proc.devRef .tc main_v13) (ix4 b i p ch)
      = Cert.Attn.attnRow (m ((c : Thread nD τ).loc main_arg1)) (m ((c : Thread nD τ).loc main_arg4))
          (Cert.Attn.keys (KeyValue.pooled (m ((c : Thread nD τ).loc main_arg0))) (m ((c : Thread nD τ).loc main_arg2)) b)
          (Cert.Attn.vals (KeyValue.pooled (m ((c : Thread nD τ).loc main_arg0))) (m ((c : Thread nD τ).loc main_arg3)) b)
          (fun k => m ((c : Thread nD τ).loc main_arg0) (ix4 b i p k)) ch := by
  have hb := b.isLt; have hi := i.isLt; have hp := p.isLt; have hch := ch.isLt
  rw [Boundary.result_eq]
  refine (shapeCast_apply _ shapeCasts_S16x4096x512_S16x64x64x512 (ix4 b i p ch)
    (ix3 b (⟨i.val * 64 + p.val, by omega⟩ : Fin 4096) ch) (by
      rw [Shape.rowMajor_val_three, Shape.rowMajor_val_four]
      show (b.val * 4096 + (i.val * 64 + p.val)) * 512 + ch.val = ((b.val * 64 + i.val) * 64 + p.val) * 512 + ch.val
      omega)).trans ?_
  rw [Fused.attended (V3 m ρ) c]
  unfold Fused.attnArr
  refine Fused.attnRow_congr (Boundary.queryWeights_eq m ρ c) (Boundary.outputWeights_eq m ρ c)
    (fun k d => KeyValue.keys_entry m ρ c b k d) (fun k d => KeyValue.vals_entry m ρ c b k d) (fun k => ?_) rfl
  rw [Boundary.rows_eq]
  have hk := k.isLt
  exact shapeCast_apply _ shapeCasts_S16x64x64x512_S16x4096x512 _ (ix4 b i p k) (by
    rw [Shape.rowMajor_val_four, Shape.rowMajor_val_three]
    show ((b.val * 64 + i.val) * 64 + p.val) * 512 + k.val = (b.val * 4096 + (i.val * 64 + p.val)) * 512 + k.val
    omega)

/-- THE KERNEL'S RESULT: the specification's attention block of the launched arrays, with the kernel's own pooled input. -/
theorem result_eq (c : Dev nD) :
    W5 m ρ c (Proc.devRef .tc main_v13)
      = Cert.Attn.result (m ((c : Thread nD τ).loc main_arg0)) (KeyValue.pooled (m ((c : Thread nD τ).loc main_arg0)))
          (m ((c : Thread nD τ).loc main_arg1)) (m ((c : Thread nD τ).loc main_arg2)) (m ((c : Thread nD τ).loc main_arg3))
          (m ((c : Thread nD τ).loc main_arg4)) := by
  funext j
  obtain ⟨b, i, p, ch, rfl⟩ : ∃ (b : Fin 16) (i p : Fin 64) (ch : Fin 512), j = ix4 b i p ch := ⟨j 0, j 1, j 2, j 3, eq_ix4 j⟩
  exact result_entry m ρ c b i p ch

end Cert.KernelIdeal.Whole

end
-- ==== Proof.ReferenceIsSpec.lean ====
/-
  The reference program computes the attention block of the specification.

  Each operation of the reference is read at an index and identified, stage by stage, with the matching row function
  of the specification: the three projections (queries from the input, keys and values from the pooled input), the
  scores, the row maximum, the shifted exponentials and their sum, the softmax, the mixed row, the output projection
  and the residual. The pooled input is never opened: it is the same array on both sides.
  Only index arithmetic is used (a pixel (i, j) of a 64 × 64 image is row 64·i + j of the flattened image; pooled pixel
  k is (k / 32, k % 32)), together with `max ⊥ m = m` for a maximum folded from ⊥ and `0 + x = x`.
-/
import proofs.«156543_j86423331930517_2_alg».proof.Proof.Gen.ReferenceIdeal.Read
import proofs.«156543_j86423331930517_2_alg».proof.Proof.AttentionSpec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Attn

/-- The keys: the reference's flattened key array at (b, k, d) is the specification's key of pooled pixel `k`. -/
theorem keys_eq (x0 : (⟨S16x64x64x512, .f32⟩ : BufTy).Contents (Elt Ideal)) (x2 : (⟨S512x64, .f32⟩ : BufTy).Contents (Elt Ideal))
    (b : Fin 16) (k : Fin 1024) (d : Fin 64) :
    val_main_v7 (F := Ideal) x0 x2 (ix3 b k d) = keys (val_main_v5 (F := Ideal) x0) x2 b k d := by
  rw [val_main_v7_apply, val_main_v6_apply]
  unfold keys
  refine Finset.sum_congr rfl fun c _ => ?_
  have hb := b.isLt; have hk := k.isLt; have hd := d.isLt
  have e1 : lidx_main_v6 (idx_main_v7 (ix3 b k d)) c = pooledIdx b k c := funext fun a => Fin.ext (by
    match a with
    | ⟨0, _⟩ => show ((b.val * 1024 + k.val) * 64 + d.val) / 65536 = b.val; omega
    | ⟨1, _⟩ => show ((b.val * 1024 + k.val) * 64 + d.val) / 2048 % 32 = k.val / 32; omega
    | ⟨2, _⟩ => show ((b.val * 1024 + k.val) * 64 + d.val) / 64 % 32 = k.val % 32; omega
    | ⟨3, _⟩ => rfl)
  have e2 : ridx_main_v6 (idx_main_v7 (ix3 b k d)) c = ix2 c d := funext fun a => Fin.ext (by
    match a with
    | ⟨0, _⟩ => rfl
    | ⟨1, _⟩ => show ((b.val * 1024 + k.val) * 64 + d.val) % 64 = d.val; omega)
  rw [e1, e2]

/-- The values: the reference's flattened value array at (b, k, d) is the specification's value of pooled pixel `k`. -/
theorem vals_eq (x0 : (⟨S16x64x64x512, .f32⟩ : BufTy).Contents (Elt Ideal)) (x3 : (⟨S512x256, .f32⟩ : BufTy).Contents (Elt Ideal))
    (b : Fin 16) (k : Fin 1024) (d : Fin 256) :
    val_main_v9 (F := Ideal) x0 x3 (ix3 b k d) = vals (val_main_v5 (F := Ideal) x0) x3 b k d := by
  rw [val_main_v9_apply, val_main_v8_apply]
  unfold vals
  refine Finset.sum_congr rfl fun c _ => ?_
  have hb := b.isLt; have hk := k.isLt; have hd := d.isLt
  have e1 : lidx_main_v8 (idx_main_v9 (ix3 b k d)) c = pooledIdx b k c := funext fun a => Fin.ext (by
    match a with
    | ⟨0, _⟩ => show ((b.val * 1024 + k.val) * 256 + d.val) / 262144 = b.val; omega
    | ⟨1, _⟩ => show ((b.val * 1024 + k.val) * 256 + d.val) / 8192 % 32 = k.val / 32; omega
    | ⟨2, _⟩ => show ((b.val * 1024 + k.val) * 256 + d.val) / 256 % 32 = k.val % 32; omega
    | ⟨3, _⟩ => rfl)
  have e2 : ridx_main_v8 (idx_main_v9 (ix3 b k d)) c = ix2 c d := funext fun a => Fin.ext (by
    match a with
    | ⟨0, _⟩ => rfl
    | ⟨1, _⟩ => show ((b.val * 1024 + k.val) * 256 + d.val) % 256 = d.val; omega)
  rw [e1, e2]

/-- Row `q` of the flattened image `b`: the 512 channels of pixel (q / 64, q % 64). -/
def pixelRow (x0 : (⟨S16x64x64x512, .f32⟩ : BufTy).Contents (Elt Ideal)) (b : Fin 16) (q : Fin 4096) : Fin 512 → EReal :=
  fun c => x0 (ix4 b ⟨q.val / 64, by have := q.isLt; omega⟩ ⟨q.val % 64, by omega⟩ c)

/-- The queries: the reference's flattened query array at (b, q, d) is the specification's query feature of row `q`. -/
theorem query_eq (x0 : (⟨S16x64x64x512, .f32⟩ : BufTy).Contents (Elt Ideal)) (x1 : (⟨S512x64, .f32⟩ : BufTy).Contents (Elt Ideal))
    (b : Fin 16) (q : Fin 4096) (d : Fin 64) :
    val_main_v1 (F := Ideal) x0 x1 (ix3 b q d) = queryRow x1 (pixelRow x0 b q) d := by
  rw [val_main_v1_apply, val_main_v0_apply]
  unfold queryRow pixelRow
  refine Finset.sum_congr rfl fun c _ => ?_
  have hb := b.isLt; have hq := q.isLt; have hd := d.isLt
  have e1 : lidx_main_v0 (idx_main_v1 (ix3 b q d)) c
      = ix4 b ⟨q.val / 64, by omega⟩ ⟨q.val % 64, by omega⟩ c := funext fun a => Fin.ext (by
    match a with
    | ⟨0, _⟩ => show ((b.val * 4096 + q.val) * 64 + d.val) / 262144 = b.val; omega
    | ⟨1, _⟩ => show ((b.val * 4096 + q.val) * 64 + d.val) / 4096 % 64 = q.val / 64; omega
    | ⟨2, _⟩ => show ((b.val * 4096 + q.val) * 64 + d.val) / 64 % 64 = q.val % 64; omega
    | ⟨3, _⟩ => rfl)
  have e2 : ridx_main_v0 (idx_main_v1 (ix3 b q d)) c = ix2 c d := funext fun a => Fin.ext (by
    match a with
    | ⟨0, _⟩ => rfl
    | ⟨1, _⟩ => show ((b.val * 4096 + q.val) * 64 + d.val) % 64 = d.val; omega)
  rw [e1, e2]

/-- The scores of row `q` of image `b` against the 1024 keys of image `b`. -/
def scores (x0 : (⟨S16x64x64x512, .f32⟩ : BufTy).Contents (Elt Ideal)) (x1 x2 : (⟨S512x64, .f32⟩ : BufTy).Contents (Elt Ideal))
    (b : Fin 16) (q : Fin 4096) : Fin 1024 → EReal :=
  scoreRow (queryRow x1 (pixelRow x0 b q)) (keys (val_main_v5 (F := Ideal) x0) x2 b)

/-- The scores: the reference's score array at (b, q, k). -/
theorem score_eq (x0 : (⟨S16x64x64x512, .f32⟩ : BufTy).Contents (Elt Ideal)) (x1 x2 : (⟨S512x64, .f32⟩ : BufTy).Contents (Elt Ideal))
    (b : Fin 16) (q : Fin 4096) (k : Fin 1024) :
    val_main_v10 (F := Ideal) x0 x1 x2 (ix3 b q k) = scores x0 x1 x2 b q k := by
  rw [val_main_v10_apply]
  unfold scores scoreRow
  refine Finset.sum_congr rfl fun d _ => ?_
  have e1 : lidx_main_v10 (ix3 b q k) d = ix3 b q d := funext fun a => Fin.ext (by
    match a with
    | ⟨0, _⟩ => rfl
    | ⟨1, _⟩ => rfl
    | ⟨2, _⟩ => rfl)
  have e2 : ridx_main_v10 (ix3 b q k) d = ix3 b k d := funext fun a => Fin.ext (by
    match a with
    | ⟨0, _⟩ => rfl
    | ⟨1, _⟩ => rfl
    | ⟨2, _⟩ => rfl)
  rw [e1, e2, query_eq, keys_eq]

/-- The maximum over the 1024 keys of the reference's scores at (b, q): the fold of `max` from −∞ over the row. -/
theorem reduceMax_eq (x0 : (⟨S16x64x64x512, .f32⟩ : BufTy).Contents (Elt Ideal)) (x1 x2 : (⟨S512x64, .f32⟩ : BufTy).Contents (Elt Ideal))
    (b : Fin 16) (q : Fin 4096) :
    val_main_v11 (F := Ideal) x0 x1 x2 (ix2 b q) = rowMax (scores x0 x1 x2 b q) := by
  have h : S16x4096x1024.Reduces [2] S16x4096 := by decide
  unfold val_main_v11
  rw [Host.reduce_eq_fold_single FloatOps.maximumf _ _ reducesTo_S16x4096x1024_S16x4096_d2 h h_S_,
    val_main_cst_1_apply, Ideal.ofBits_def]
  unfold rowMax
  refine Finset.fold_congr fun k _ => ?_
  exact (congrArg (val_main_v10 (F := Ideal) x0 x1 x2) (funext fun a => Fin.ext (by
    match a with
    | ⟨0, _⟩ => rfl
    | ⟨1, _⟩ => rfl
    | ⟨2, _⟩ => rfl))).trans (score_eq x0 x1 x2 b q k)

/-- Taking the maximum with −∞ once more changes nothing: the fold already starts from −∞. -/
theorem rowMax_eq (x0 : (⟨S16x64x64x512, .f32⟩ : BufTy).Contents (Elt Ideal)) (x1 x2 : (⟨S512x64, .f32⟩ : BufTy).Contents (Elt Ideal))
    (b : Fin 16) (q : Fin 4096) :
    val_main_v13 (F := Ideal) x0 x1 x2 (ix2 b q) = rowMax (scores x0 x1 x2 b q) := by
  rw [val_main_v13_apply, val_main_v12_apply, val_main_cst_2_apply, reduceMax_eq, Ideal.ofBits_def, Ideal.maximumf_def]
  exact max_eq_right ((Finset.le_fold_max _).mpr (Or.inl le_rfl))

/-- The shifted exponentials: the reference subtracts the row maximum (broadcast along the keys) and exponentiates. -/
theorem exp_eq (x0 : (⟨S16x64x64x512, .f32⟩ : BufTy).Contents (Elt Ideal)) (x1 x2 : (⟨S512x64, .f32⟩ : BufTy).Contents (Elt Ideal))
    (b : Fin 16) (q : Fin 4096) (k : Fin 1024) :
    val_main_v17 (F := Ideal) x0 x1 x2 (ix3 b q k) = expRow (scores x0 x1 x2 b q) k := by
  have e : idx_main_v14 (idx_main_v15 (ix3 b q k)) = ix2 b q := funext fun a => Fin.ext (by
    match a with
    | ⟨0, _⟩ => rfl
    | ⟨1, _⟩ => rfl)
  rw [val_main_v17_apply, val_main_v16_apply, val_main_v15_apply, val_main_v14_apply, e, rowMax_eq, score_eq,
    Ideal.hostUnary_exp_def, Ideal.subf_def]
  rfl

/-- The sum of a row's shifted exponentials: the reference's sum starts from the zero word. -/
theorem expSum_eq (x0 : (⟨S16x64x64x512, .f32⟩ : BufTy).Contents (Elt Ideal)) (x1 x2 : (⟨S512x64, .f32⟩ : BufTy).Contents (Elt Ideal))
    (b : Fin 16) (q : Fin 4096) :
    val_main_v18 (F := Ideal) x0 x1 x2 (ix2 b q) = ∑ k : Fin 1024, expRow (scores x0 x1 x2 b q) k := by
  rw [val_main_v18_apply, val_main_cst_3_apply, Ideal.ofBits_def, Ideal.ofBits_zero_f32, zero_add]
  refine Finset.sum_congr rfl fun k _ => ?_
  have e : idx_main_v18 (ix2 b q) k = ix3 b q k := funext fun a => Fin.ext (by
    match a with
    | ⟨0, _⟩ => rfl
    | ⟨1, _⟩ => rfl
    | ⟨2, _⟩ => rfl)
  rw [e, exp_eq]

/-- The softmax: each shifted exponential divided by the row's sum (broadcast along the keys). -/
theorem prob_eq (x0 : (⟨S16x64x64x512, .f32⟩ : BufTy).Contents (Elt Ideal)) (x1 x2 : (⟨S512x64, .f32⟩ : BufTy).Contents (Elt Ideal))
    (b : Fin 16) (q : Fin 4096) (k : Fin 1024) :
    val_main_v21 (F := Ideal) x0 x1 x2 (ix3 b q k) = probRow (scores x0 x1 x2 b q) k := by
  have e : idx_main_v19 (idx_main_v20 (ix3 b q k)) = ix2 b q := funext fun a => Fin.ext (by
    match a with
    | ⟨0, _⟩ => rfl
    | ⟨1, _⟩ => rfl)
  rw [val_main_v21_apply, val_main_v20_apply, val_main_v19_apply, e, expSum_eq, exp_eq, Ideal.hostDivf_def]
  rfl

/-- The mixed row: the softmax weights against the 1024 value rows of image `b`. -/
theorem mix_eq (x0 : (⟨S16x64x64x512, .f32⟩ : BufTy).Contents (Elt Ideal)) (x1 x2 : (⟨S512x64, .f32⟩ : BufTy).Contents (Elt Ideal)) (x3 : (⟨S512x256, .f32⟩ : BufTy).Contents (Elt Ideal))
    (b : Fin 16) (q : Fin 4096) (d : Fin 256) :
    val_main_v22 (F := Ideal) x0 x1 x2 x3 (ix3 b q d)
      = mixRow (probRow (scores x0 x1 x2 b q)) (vals (val_main_v5 (F := Ideal) x0) x3 b) d := by
  rw [val_main_v22_apply]
  unfold mixRow
  refine Finset.sum_congr rfl fun k _ => ?_
  have e1 : lidx_main_v22 (ix3 b q d) k = ix3 b q k := funext fun a => Fin.ext (by
    match a with
    | ⟨0, _⟩ => rfl
    | ⟨1, _⟩ => rfl
    | ⟨2, _⟩ => rfl)
  have e2 : ridx_main_v22 (ix3 b q d) k = ix3 b k d := funext fun a => Fin.ext (by
    match a with
    | ⟨0, _⟩ => rfl
    | ⟨1, _⟩ => rfl
    | ⟨2, _⟩ => rfl)
  rw [e1, e2, prob_eq, vals_eq]

/-- Row 64·i + j of the flattened image is pixel (i, j). -/
theorem pixelRow_pixel (x0 : (⟨S16x64x64x512, .f32⟩ : BufTy).Contents (Elt Ideal)) (b : Fin 16) (i j : Fin 64) :
    pixelRow x0 b ⟨i.val * 64 + j.val, by have := i.isLt; have := j.isLt; omega⟩ = fun c => x0 (ix4 b i j c) := by
  have hi := i.isLt; have hj := j.isLt
  unfold pixelRow
  funext c
  exact congrArg x0 (funext fun a => Fin.ext (by
    match a with
    | ⟨0, _⟩ => rfl
    | ⟨1, _⟩ => show (i.val * 64 + j.val) / 64 = i.val; omega
    | ⟨2, _⟩ => show (i.val * 64 + j.val) % 64 = j.val; omega
    | ⟨3, _⟩ => rfl))

/-- The mixed rows laid out by pixel again: pixel (i, j) holds the mixed row of row 64·i + j. -/
theorem mixPixel_eq (x0 : (⟨S16x64x64x512, .f32⟩ : BufTy).Contents (Elt Ideal)) (x1 x2 : (⟨S512x64, .f32⟩ : BufTy).Contents (Elt Ideal)) (x3 : (⟨S512x256, .f32⟩ : BufTy).Contents (Elt Ideal))
    (b : Fin 16) (i j : Fin 64) (d : Fin 256) :
    val_main_v23 (F := Ideal) x0 x1 x2 x3 (ix4 b i j d)
      = mixRow (probRow (scoreRow (queryRow x1 (fun c => x0 (ix4 b i j c))) (keys (val_main_v5 (F := Ideal) x0) x2 b)))
          (vals (val_main_v5 (F := Ideal) x0) x3 b) d := by
  have hb := b.isLt; have hi := i.isLt; have hj := j.isLt; have hd := d.isLt
  have e : idx_main_v23 (ix4 b i j d) = ix3 b ⟨i.val * 64 + j.val, by omega⟩ d := funext fun a => Fin.ext (by
    match a with
    | ⟨0, _⟩ => show (((b.val * 64 + i.val) * 64 + j.val) * 256 + d.val) / 1048576 = b.val; omega
    | ⟨1, _⟩ => show (((b.val * 64 + i.val) * 64 + j.val) * 256 + d.val) / 256 % 4096 = i.val * 64 + j.val; omega
    | ⟨2, _⟩ => show (((b.val * 64 + i.val) * 64 + j.val) * 256 + d.val) % 256 = d.val; omega)
  rw [val_main_v23_apply, e, mix_eq]
  unfold scores
  rw [pixelRow_pixel]

/-- The whole block at one element: output projection of the mixed row plus the input element. -/
theorem out_eq (x0 : (⟨S16x64x64x512, .f32⟩ : BufTy).Contents (Elt Ideal)) (x1 x2 : (⟨S512x64, .f32⟩ : BufTy).Contents (Elt Ideal)) (x3 : (⟨S512x256, .f32⟩ : BufTy).Contents (Elt Ideal)) (x4 : (⟨S256x512, .f32⟩ : BufTy).Contents (Elt Ideal))
    (b : Fin 16) (i j : Fin 64) (c : Fin 512) :
    val_main_v25 (F := Ideal) x0 x1 x2 x3 x4 (ix4 b i j c)
      = attnRow x1 x4 (keys (val_main_v5 (F := Ideal) x0) x2 b) (vals (val_main_v5 (F := Ideal) x0) x3 b)
          (fun k => x0 (ix4 b i j k)) c := by
  rw [val_main_v25_apply, val_main_v24_apply, Ideal.addf_def]
  unfold attnRow outRow
  refine congrArg (· + x0 (ix4 b i j c)) (Finset.sum_congr rfl fun d _ => ?_)
  have e1 : lidx_main_v24 (ix4 b i j c) d = ix4 b i j d := funext fun a => Fin.ext (by
    match a with
    | ⟨0, _⟩ => rfl
    | ⟨1, _⟩ => rfl
    | ⟨2, _⟩ => rfl
    | ⟨3, _⟩ => rfl)
  have e2 : ridx_main_v24 (ix4 b i j c) d = ix2 d c := funext fun a => Fin.ext (by
    match a with
    | ⟨0, _⟩ => rfl
    | ⟨1, _⟩ => rfl)
  rw [e1, e2, mixPixel_eq]

/-- The reference computes the specification's attention block, with the pooled input it computes itself as the
    pooled array. -/
theorem reference_eq (x0 : (⟨S16x64x64x512, .f32⟩ : BufTy).Contents (Elt Ideal)) (x1 x2 : (⟨S512x64, .f32⟩ : BufTy).Contents (Elt Ideal))
    (x3 : (⟨S512x256, .f32⟩ : BufTy).Contents (Elt Ideal)) (x4 : (⟨S256x512, .f32⟩ : BufTy).Contents (Elt Ideal)) :
    Cert.ReferenceIdeal.Read.val_main_v25 (F := Ideal) x0 x1 x2 x3 x4
      = Cert.Attn.result x0 (Cert.ReferenceIdeal.Read.val_main_v5 (F := Ideal) x0) x1 x2 x3 x4 := by
  funext j
  obtain ⟨b, i, p, c, rfl⟩ : ∃ (b : Fin 16) (i p : Fin 64) (c : Fin 512), j = ix4 b i p c :=
    ⟨j 0, j 1, j 2, j 3, eq_ix4 j⟩
  exact out_eq x0 x1 x2 x3 x4 b i p c

end Cert.ReferenceIdeal.RefValue

end
-- ==== Proof.lean ====
/-
  A self-attention block over images, as a two-region kernel and as a plain reference: both compute one function.

  The input is 16 images of 64 × 64 pixels with 512 channels. Keys and values come from the image pooled 2 × 2; every pixel
  is a query. For a pixel's row x of channels: f = x·Wf, scores s k = f · g k against the 1024 keys g of the same image,
  p = softmax s, y = ∑ k, p k · h k over the values h, and the output row is y·Wo + x.

  The kernel pools the image on the host, projects the pooled rows onto the stacked weights [Wg | Wh] in a first region
  (16 row blocks) and slices the keys and the values out of that product; a second region (16 × 4 blocks of 1024 query
  rows) does everything else for its rows and writes them back. The reference does the same steps on whole arrays.
  On the extended reals every step of the two programs is the same sum, maximum, exponential or quotient of the same
  entries (the changes of float format are the identity; a product into a zero accumulator is the host's contraction;
  a column of the stacked product is a column of one factor's product), so the two results agree entry by entry with no
  law of arithmetic beyond `0 + x = x` and `max ⊥ m = m`; the inputs' finiteness is not used.

  The three frames are the generated ones (the reference's is its run with the result dropped); the idealization
  rewrote nothing, so there is nothing to preserve; the value claim puts both runs at `Cert.Attn.result`.
-/
import proofs.«156543_j86423331930517_2_alg».proof.Defs
import proofs.«156543_j86423331930517_2_alg».proof.Proof.Gen.Kernel
import proofs.«156543_j86423331930517_2_alg».proof.Proof.Gen.Kernel.Skeleton
import proofs.«156543_j86423331930517_2_alg».proof.Proof.Gen.Kernel.Launch
import proofs.«156543_j86423331930517_2_alg».proof.Proof.Gen.Kernel.Points
import proofs.«156543_j86423331930517_2_alg».proof.Proof.Gen.Kernel.Frame
import proofs.«156543_j86423331930517_2_alg».proof.Proof.Gen.KernelIdeal
import proofs.«156543_j86423331930517_2_alg».proof.Proof.Gen.KernelIdeal.Skeleton
import proofs.«156543_j86423331930517_2_alg».proof.Proof.Gen.KernelIdeal.Launch
import proofs.«156543_j86423331930517_2_alg».proof.Proof.Gen.KernelIdeal.Points
import proofs.«156543_j86423331930517_2_alg».proof.Proof.Gen.KernelIdeal.Frame
import proofs.«156543_j86423331930517_2_alg».proof.Proof.Gen.ReferenceIdeal
import proofs.«156543_j86423331930517_2_alg».proof.Proof.Gen.ReferenceIdeal.Run
import proofs.«156543_j86423331930517_2_alg».proof.Proof.Gen.ReferenceIdeal.Read
import proofs.«156543_j86423331930517_2_alg».proof.Proof.Gen.Pre_finite_inputs
import proofs.«156543_j86423331930517_2_alg».proof.Proof.KernelRun
import proofs.«156543_j86423331930517_2_alg».proof.Proof.KernelIsSpec
import proofs.«156543_j86423331930517_2_alg».proof.Proof.ReferenceIsSpec
import Idealize.ShloMosaic.Adequacy
import Idealize.ShloMosaic.Init

noncomputable section

namespace Cert.Proof

open Idealize.ShloMosaic Idealize.ShloMosaic.TcCoe Idealize.SL.Sem

/-- The pooled input is one term in the two programs: the same reshape, sum over the two pooling axes, and division by 4. -/
theorem pooled_same (x : FVec Ideal Cert.KernelIdeal.S16x64x64x512 .f32) :
    Cert.KernelIdeal.KeyValue.pooled x = Cert.ReferenceIdeal.Read.val_main_v5 (F := Ideal) x := by
  unfold Cert.KernelIdeal.KeyValue.pooled Cert.ReferenceIdeal.Read.val_main_v5 Cert.ReferenceIdeal.Read.val_main_v3
    Cert.ReferenceIdeal.Read.val_main_v2 Cert.ReferenceIdeal.Read.val_main_cst Cert.ReferenceIdeal.Read.val_main_v4
    Cert.ReferenceIdeal.Read.val_main_cst_0
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs, from memories that agree on the five arguments, end with the attention block of those
    arguments in their result buffers. -/
theorem algebraic : Cert.algebraic_KernelIdeal_ReferenceIdeal := by
  intro m ρ m' ρ' _ hagree
  refine ⟨fun c => Cert.Attn.result (m ((c.tc : Thread Cert.KernelIdeal.nD Cert.KernelIdeal.τ).loc Cert.KernelIdeal.main_arg0))
      (Cert.KernelIdeal.KeyValue.pooled (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Whole.result_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    have e := hagree c
    rw [Cert.ReferenceIdeal.Read.val_main_v25_eq, Cert.ReferenceIdeal.RefValue.reference_eq, e.1, e.2.1, e.2.2.1, e.2.2.2.1,
      e.2.2.2.2, ← pooled_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
